-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)
  ∧ IdealRules.named_const.Statement Cert.KernelIdeal.κ "inv_3" .f32 0x3EAAAAAB#32 ((1 / 3 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304 : Shape := ⟨1, ![4194304]⟩
abbrev S4194304x5 : Shape := ⟨2, ![4194304, 5]⟩
abbrev S_ : Shape := ⟨0, ![]⟩

class Facts : Prop where
  bcast_S_S4194304 : S_.BroadcastsInDim S4194304 (![] : Fin 0 → Fin S4194304.rank)
  reducesTo_S4194304_S_d0 : S4194304.ReducesTo [0] S_
  h_S_ : 0 < S_.numel
  bcast_S_S4194304x5 : S_.BroadcastsInDim S4194304x5 (![] : Fin 0 → Fin S4194304x5.rank)
  reducesTo_S4194304x5_S_d0_1 : S4194304x5.ReducesTo [0, 1] S_

variable [Facts]

def fn {F : FTy → Type} [FloatOps F] (main_arg0 : FVec F S4194304 .f32) (main_arg1 : FVec F S4194304x5 .f32) : IVec S_ 1 :=
  let main_v0 : FVec F S4194304 .f32 := Host.absf main_arg0
  let main_cst : FVec F S_ .f32 := constant S_ .f32 0x7F800000#32
  let main_v1 : FVec F S4194304 .f32 := broadcastInDim S4194304 ![] bcast_S_S4194304 main_cst
  let main_v2 : IVec S4194304 1 := cmpf .olt main_v0 main_v1
  let main_c : IVec S_ 1 := constantI S_ 1 1#1
  let main_v3 : IVec S_ 1 := (fun x v => Host.reduce IntOp.andi x v reducesTo_S4194304_S_d0 h_S_) main_v2 main_c
  let main_v4 : FVec F S4194304x5 .f32 := Host.absf main_arg1
  let main_cst_0 : FVec F S_ .f32 := constant S_ .f32 0x7F800000#32
  let main_v5 : FVec F S4194304x5 .f32 := broadcastInDim S4194304x5 ![] bcast_S_S4194304x5 main_cst_0
  let main_v6 : IVec S4194304x5 1 := cmpf .olt main_v4 main_v5
  let main_c_1 : IVec S_ 1 := constantI S_ 1 1#1
  let main_v7 : IVec S_ 1 := (fun x v => Host.reduce IntOp.andi x v reducesTo_S4194304x5_S_d0_1 h_S_) main_v6 main_c_1
  let main_v8 : IVec S_ 1 := andi main_v3 main_v7
  main_v8
-- ==== Kernel.lean ====
abbrev S4194304 : Shape := ⟨1, ![4194304]⟩
abbrev S4194304x5 : Shape := ⟨2, ![4194304, 5]⟩
abbrev S1 : Shape := ⟨1, ![1]⟩
abbrev S16384 : Shape := ⟨1, ![16384]⟩
abbrev S16384x5 : Shape := ⟨2, ![16384, 5]⟩
abbrev S16384x1 : Shape := ⟨2, ![16384, 1]⟩
abbrev S1x16384 : Shape := ⟨2, ![1, 16384]⟩
abbrev S1x1 : Shape := ⟨2, ![1, 1]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S4194304, .f32⟩
  | .hbm, ⟨1, _⟩ => ⟨S4194304x5, .f32⟩
  | .hbm, ⟨2, _⟩ => ⟨S1, .f32⟩
  | .hbm, ⟨3, _⟩ => ⟨S_, .f32⟩
  | .local _ .vmem, ⟨0, _⟩ => ⟨S16384, .f32⟩
  | .local _ .vmem, ⟨1, _⟩ => ⟨S16384, .f32⟩
  | .local _ .vmem, ⟨2, _⟩ => ⟨S16384x5, .f32⟩
  | .local _ .vmem, ⟨3, _⟩ => ⟨S16384x5, .f32⟩
  | .local _ .vmem, ⟨4, _⟩ => ⟨S1, .f32⟩
  | _, _ => ⟨S4194304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![256], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1_S1_0 : ∀ a, (![0] : Fin 1 → Nat) a + S1.size a ≤ S1.size a
  h_S1 : 0 < S1.numel
  inb_S16384_S16384_0 : ∀ a, (![0] : Fin 1 → Nat) a + S16384.size a ≤ S16384.size a
  h_S16384 : 0 < S16384.numel
  natLt_1_32 : 1 < 32
  inb_S16384x5_S16384x1_0_0 : ∀ a, (![0, 0] : Fin 2 → Nat) a + S16384x1.size a ≤ S16384x5.size a
  h_S16384x1 : 0 < S16384x1.numel
  shapeCasts_S16384x1_S16384 : S16384x1.ShapeCasts S16384
  inb_S16384x5_S16384x1_0_1 : ∀ a, (![0, 1] : Fin 2 → Nat) a + S16384x1.size a ≤ S16384x5.size a
  inb_S16384x5_S16384x1_0_2 : ∀ a, (![0, 2] : Fin 2 → Nat) a + S16384x1.size a ≤ S16384x5.size a
  inb_S16384x5_S16384x1_0_3 : ∀ a, (![0, 3] : Fin 2 → Nat) a + S16384x1.size a ≤ S16384x5.size a
  inb_S16384x5_S16384x1_0_4 : ∀ a, (![0, 4] : Fin 2 → Nat) a + S16384x1.size a ≤ S16384x5.size a
  shapeCasts_S16384_S1x16384 : S16384.ShapeCasts S1x16384
  reduces_S1x16384_S1 : S1x16384.Reduces [1] S1
  shapeCasts_S1_S1x1 : S1.ShapeCasts S1x1
  inpos_S1x1_p0_0 : ∀ a, (![0, 0] : Fin 2 → Nat) a < S1x1.size a
  shapeCasts_S1_S1 : S1.ShapeCasts S1
  shapeCasts_S1_S_ : S1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384.size a ≤ S4194304.size a
  hwx0_0 : ∀ i : grid0.Coords, EltTy.bits .f32 = 32 ∨ (Rect.block (s := S4194304) S16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x5.size a ≤ S4194304x5.size a
  hwx0_1 : ∀ i : grid0.Coords, EltTy.bits .f32 = 32 ∨ (Rect.block (s := S4194304x5) S16384x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1.size a ≤ S1.size a
  hwx0_2 : ∀ i : grid0.Coords, EltTy.bits .f32 = 32 ∨ (Rect.block (s := S1) S1.size (cc0_transform_2 i) (hinb0_2 i)).WholeWords (EltTy.packing .f32)

variable [Facts₀]

abbrev win0_0 : Pipeline.Window sig grid0 :=
  Pipeline.Window.ofSpec (Memref.whole main_arg0) S16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16384x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4194304 : Shape := ⟨1, ![4194304]⟩
abbrev S4194304x5 : Shape := ⟨2, ![4194304, 5]⟩
abbrev S_ : Shape := ⟨0, ![]⟩
abbrev S5 : Shape := ⟨1, ![5]⟩
abbrev S4194304x1 : Shape := ⟨2, ![4194304, 1]⟩
abbrev S1x5 : Shape := ⟨2, ![1, 5]⟩

abbrev nBuf : Space → Nat
  | .hbm => 119
  | .vmem => 0
  | .smem => 0
  | _ => 0

abbrev bufTy : (tb : Table) → Fin (tcTables nBuf tb) → BufTy
  | .hbm, ⟨0, _⟩ => ⟨S4194304, .f32⟩
  | .hbm, ⟨1, _⟩ => ⟨S4194304x5, .f32⟩
  | .hbm, ⟨2, _⟩ => ⟨S_, .f32⟩
  | .hbm, ⟨3, _⟩ => ⟨S4194304, .f32⟩
  | .hbm, ⟨4, _⟩ => ⟨S4194304, .f32⟩
  | .hbm, ⟨5, _⟩ => ⟨S_, .f32⟩
  | .hbm, ⟨6, _⟩ => ⟨S_, .i32⟩
  | .hbm, ⟨7, _⟩ => ⟨S_, .f32⟩
  | .hbm, ⟨8, _⟩ => ⟨S4194304, .f32⟩
  | .hbm, ⟨9, _⟩ => ⟨S4194304, .f32⟩
  | .hbm, ⟨10, _⟩ => ⟨S_, .f32⟩
  | .hbm, ⟨11, _⟩ => ⟨S4194304, .f32⟩
  | .hbm, ⟨12, _⟩ => ⟨S4194304, .f32⟩
  | .hbm, ⟨13, _⟩ => ⟨S4194304, .f32⟩
  | .hbm, ⟨14, _⟩ => ⟨S4194304, .i32⟩
  | .hbm, ⟨15, _⟩ => ⟨S4194304, .f32⟩
  | .hbm, ⟨16, _⟩ => ⟨S_, .f32⟩
  | .hbm, ⟨17, _⟩ => ⟨S4194304, .f32⟩
  | .hbm, ⟨18, _⟩ => ⟨S4194304, .f32⟩
  | .hbm, ⟨19, _⟩ => ⟨S_, .f32⟩
  | .hbm, ⟨20, _⟩ => ⟨S4194304, .f32⟩
  | .hbm, ⟨21, _⟩ => ⟨S4194304, .f32⟩
  | .hbm, ⟨22, _⟩ => ⟨S4194304, .f32⟩
  | .hbm, ⟨23, _⟩ => ⟨S4194304, .f32⟩
  | .hbm, ⟨24, _⟩ => ⟨S_, .f32⟩
  | .hbm, ⟨25, _⟩ => ⟨S4194304, .f32⟩
  | .hbm, ⟨26, _⟩ => ⟨S4194304, .f32⟩
  | .hbm, ⟨27, _⟩ => ⟨S_, .i32⟩
  | .hbm, ⟨28, _⟩ => ⟨S4194304, .i32⟩
  | .hbm, ⟨29, _⟩ => ⟨S4194304, .i1⟩
  | .hbm, ⟨30, _⟩ => ⟨S4194304, .i1⟩
  | .hbm, ⟨31, _⟩ => ⟨S4194304, .i1⟩
  | .hbm, ⟨32, _⟩ => ⟨S_, .i32⟩
  | .hbm, ⟨33, _⟩ => ⟨S4194304, .i32⟩
  | .hbm, ⟨34, _⟩ => ⟨S4194304, .i1⟩
  | .hbm, ⟨35, _⟩ => ⟨S4194304, .i1⟩
  | .hbm, ⟨36, _⟩ => ⟨S4194304, .i1⟩
  | .hbm, ⟨37, _⟩ => ⟨S4194304, .i1⟩
  | .hbm, ⟨38, _⟩ => ⟨S_, .f32⟩
  | .hbm, ⟨39, _⟩ => ⟨S4194304, .f32⟩
  | .hbm, ⟨40, _⟩ => ⟨S4194304, .f32⟩
  | .hbm, ⟨41, _⟩ => ⟨S_, .f32⟩
  | .hbm, ⟨42, _⟩ => ⟨S_, .f32⟩
  | .hbm, ⟨43, _⟩ => ⟨S4194304, .f32⟩
  | .hbm, ⟨44, _⟩ => ⟨S4194304, .f32⟩
  | .hbm, ⟨45, _⟩ => ⟨S4194304, .i32⟩
  | .hbm, ⟨46, _⟩ => ⟨S4194304, .i32⟩
  | .hbm, ⟨47, _⟩ => ⟨S4194304, .i32⟩
  | .hbm, ⟨48, _⟩ => ⟨S4194304, .i32⟩
  | .hbm, ⟨49, _⟩ => ⟨S_, .f32⟩
  | .hbm, ⟨50, _⟩ => ⟨S_, .f32⟩
  | .hbm, ⟨51, _⟩ => ⟨S4194304, .f32⟩
  | .hbm, ⟨52, _⟩ => ⟨S4194304, .f32⟩
  | .hbm, ⟨53, _⟩ => ⟨S5, .i32⟩
  | .hbm, ⟨54, _⟩ => ⟨S4194304x1, .f32⟩
  | .hbm, ⟨55, _⟩ => ⟨S1x5, .i32⟩
  | .hbm, ⟨56, _⟩ => ⟨S4194304x1, .i32⟩
  | .hbm, ⟨57, _⟩ => ⟨S4194304x5, .i32⟩
  | .hbm, ⟨58, _⟩ => ⟨S4194304x5, .i32⟩
  | .hbm, ⟨59, _⟩ => ⟨S4194304x5, .i1⟩
  | .hbm, ⟨60, _⟩ => ⟨S4194304x5, .f32⟩
  | .hbm, ⟨61, _⟩ => ⟨S4194304x5, .f32⟩
  | .hbm, ⟨62, _⟩ => ⟨S4194304x5, .f32⟩
  | .hbm, ⟨63, _⟩ => ⟨S4194304x1, .f32⟩
  | .hbm, ⟨64, _⟩ => ⟨S1x5, .i32⟩
  | .hbm, ⟨65, _⟩ => ⟨S4194304x1, .i32⟩
  | .hbm, ⟨66, _⟩ => ⟨S4194304x5, .i32⟩
  | .hbm, ⟨67, _⟩ => ⟨S4194304x5, .i32⟩
  | .hbm, ⟨68, _⟩ => ⟨S4194304x5, .i1⟩
  | .hbm, ⟨69, _⟩ => ⟨S4194304x5, .f32⟩
  | .hbm, ⟨70, _⟩ => ⟨S4194304x5, .f32⟩
  | .hbm, ⟨71, _⟩ => ⟨S4194304x5, .f32⟩
  | .hbm, ⟨72, _⟩ => ⟨S4194304x5, .f32⟩
  | .hbm, ⟨73, _⟩ => ⟨S_, .f32⟩
  | .hbm, ⟨74, _⟩ => ⟨S4194304x5, .f32⟩
  | .hbm, ⟨75, _⟩ => ⟨S4194304x5, .f32⟩
  | .hbm, ⟨76, _⟩ => ⟨S_, .f32⟩
  | .hbm, ⟨77, _⟩ => ⟨S4194304, .f32⟩
  | .hbm, ⟨78, _⟩ => ⟨S_, .f32⟩
  | .hbm, ⟨79, _⟩ => ⟨S4194304, .f32⟩
  | .hbm, ⟨80, _⟩ => ⟨S4194304, .f32⟩
  | .hbm, ⟨81, _⟩ => ⟨S4194304x1, .f32⟩
  | .hbm, ⟨82, _⟩ => ⟨S4194304x5, .f32⟩
  | .hbm, ⟨83, _⟩ => ⟨S4194304x5, .f32⟩
  | .hbm, ⟨84, _⟩ => ⟨S4194304x5, .f32⟩
  | .hbm, ⟨85, _⟩ => ⟨S_, .f32⟩
  | .hbm, ⟨86, _⟩ => ⟨S4194304, .f32⟩
  | .hbm, ⟨87, _⟩ => ⟨S4194304x1, .f32⟩
  | .hbm, ⟨88, _⟩ => ⟨S4194304x5, .f32⟩
  | .hbm, ⟨89, _⟩ => ⟨S4194304x5, .f32⟩
  | .hbm, ⟨90, _⟩ => ⟨S_, .f32⟩
  | .hbm, ⟨91, _⟩ => ⟨S4194304x5, .f32⟩
  | .hbm, ⟨92, _⟩ => ⟨S4194304x5, .f32⟩
  | .hbm, ⟨93, _⟩ => ⟨S_, .f32⟩
  | .hbm, ⟨94, _⟩ => ⟨S4194304, .f32⟩
  | .hbm, ⟨95, _⟩ => ⟨S_, .f32⟩
  | .hbm, ⟨96, _⟩ => ⟨S4194304, .f32⟩
  | .hbm, ⟨97, _⟩ => ⟨S4194304, .f32⟩
  | .hbm, ⟨98, _⟩ => ⟨S4194304x1, .f32⟩
  | .hbm, ⟨99, _⟩ => ⟨S4194304x5, .f32⟩
  | .hbm, ⟨100, _⟩ => ⟨S4194304x5, .f32⟩
  | .hbm, ⟨101, _⟩ => ⟨S4194304x5, .f32⟩
  | .hbm, ⟨102, _⟩ => ⟨S_, .f32⟩
  | .hbm, ⟨103, _⟩ => ⟨S4194304, .f32⟩
  | .hbm, ⟨104, _⟩ => ⟨S4194304x1, .f32⟩
  | .hbm, ⟨105, _⟩ => ⟨S4194304x1, .f32⟩
  | .hbm, ⟨106, _⟩ => ⟨S4194304x5, .f32⟩
  | .hbm, ⟨107, _⟩ => ⟨S4194304x5, .f32⟩
  | .hbm, ⟨108, _⟩ => ⟨S4194304x5, .f32⟩
  | .hbm, ⟨109, _⟩ => ⟨S4194304x5, .f32⟩
  | .hbm, ⟨110, _⟩ => ⟨S4194304x5, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | _, _ => ⟨S4194304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_c_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_call1_v0 : Ref sig .tc := ⟨.hbm, 42, rfl⟩
abbrev main_call1_v1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_8 : Ref sig .tc := ⟨.hbm, 49, rfl⟩
abbrev main_call2_v0 : Ref sig .tc := ⟨.hbm, 50, rfl⟩
abbrev main_call2_v1 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_9 : Ref sig .tc := ⟨.hbm, 73, rfl⟩
abbrev main_v51 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_13 : Ref sig .tc := ⟨.hbm, 90, rfl⟩
abbrev main_v64 : Ref sig .tc := ⟨.hbm, 91, rfl⟩
abbrev main_v65 : Ref sig .tc := ⟨.hbm, 92, rfl⟩
abbrev main_call3_cst : Ref sig .tc := ⟨.hbm, 93, rfl⟩
abbrev main_call3_v0 : Ref sig .tc := ⟨.hbm, 94, rfl⟩
abbrev main_call3_cst_0 : Ref sig .tc := ⟨.hbm, 95, rfl⟩
abbrev main_call3_v1 : Ref sig .tc := ⟨.hbm, 96, rfl⟩
abbrev main_call3_v2 : Ref sig .tc := ⟨.hbm, 97, rfl⟩
abbrev main_call3_v3 : Ref sig .tc := ⟨.hbm, 98, rfl⟩
abbrev main_call3_v4 : Ref sig .tc := ⟨.hbm, 99, rfl⟩
abbrev main_call3_v5 : Ref sig .tc := ⟨.hbm, 100, rfl⟩
abbrev main_call3_v6 : Ref sig .tc := ⟨.hbm, 101, rfl⟩
abbrev main_call3_cst_1 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_14 : Ref sig .tc := ⟨.hbm, 111, rfl⟩
abbrev main_v70 : Ref sig .tc := ⟨.hbm, 112, rfl⟩
abbrev main_cst_15 : Ref sig .tc := ⟨.hbm, 113, rfl⟩
abbrev main_v71 : Ref sig .tc := ⟨.hbm, 114, rfl⟩
abbrev main_cst_16 : Ref sig .tc := ⟨.hbm, 115, rfl⟩
abbrev main_v72 : Ref sig .tc := ⟨.hbm, 116, rfl⟩
abbrev main_cst_17 : Ref sig .tc := ⟨.hbm, 117, rfl⟩
abbrev main_v73 : Ref sig .tc := ⟨.hbm, 118, rfl⟩

abbrev nD : Nat := 1
abbrev τ : Topo := Topo.v7x

variable {F : FTy → Type} [FloatOps F]

class Facts₀ : Prop where
  bcast_S_S4194304 : S_.BroadcastsInDim S4194304 (![] : Fin 0 → Fin S4194304.rank)
  natLt_1_32 : 1 < 32
  bcast_S4194304_S4194304x1_0 : S4194304.BroadcastsInDim S4194304x1 (![0] : Fin 1 → Fin S4194304x1.rank)
  bcast_S5_S1x5_1 : S5.BroadcastsInDim S1x5 (![1] : Fin 1 → Fin S1x5.rank)
  bcast_S1x5_S4194304x5_0_1 : S1x5.BroadcastsInDim S4194304x5 (![0, 1] : Fin 2 → Fin S4194304x5.rank)
  bcast_S4194304x1_S4194304x5_0_1 : S4194304x1.BroadcastsInDim S4194304x5 (![0, 1] : Fin 2 → Fin S4194304x5.rank)
  bcast_S_S4194304x5 : S_.BroadcastsInDim S4194304x5 (![] : Fin 0 → Fin S4194304x5.rank)
  reducesTo_S4194304x5_S4194304_d1 : S4194304x5.ReducesTo [1] S4194304
  h_S_ : 0 < S_.numel
  reducesTo_S4194304x5_S_d0_1 : S4194304x5.ReducesTo [0, 1] S_

variable [Facts₀]

class Facts : Prop extends Facts₀ where

variable [Facts]
-- ==== Proof.KernelAccum.lean ====
/-
  The kernel body's arithmetic as one function of its two input blocks.

  A grid point loads a block of 16384 scores and the matching 16384 × 5 block of logits (one column at a time), computes
  every sample's loss, sums the 16384 losses, and adds the sum to the accumulator it finds in the one-element output
  block. This module names the intermediate vectors the generated payloads are composed of (`accum`), so that the
  block sum can be read at an index in the next module.
-/
import proofs.«113967_j22299470201498_2_alg».proof.Proof.Gen.KernelIdeal.Skeleton
import Idealize.ShloMosaic.Lib.Pipeline.Value

noncomputable section

namespace Cert.KernelIdeal.RowValue

open Cert.KernelIdeal Cert.KernelIdeal.Gen Idealize.ShloMosaic

variable {F : FTy → Type} [FloatOps F] [Named F]

section
variable (x0 : Vec F S16384 .f32) (x1 : Vec F S16384x5 .f32)

/-- Column `k` of the logits block, as the body loads it: a [16384, 1] vector. -/
abbrev col0 : Vec F S16384x1 .f32 := View.ld x1 (Rect.unit (s := S16384x5) ![0, 0] S16384x1.size Facts₀.inb_S16384x5_S16384x1_0_0)
abbrev col1 : Vec F S16384x1 .f32 := View.ld x1 (Rect.unit (s := S16384x5) ![0, 1] S16384x1.size Facts₀.inb_S16384x5_S16384x1_0_1)
abbrev col2 : Vec F S16384x1 .f32 := View.ld x1 (Rect.unit (s := S16384x5) ![0, 2] S16384x1.size Facts₀.inb_S16384x5_S16384x1_0_2)
abbrev col3 : Vec F S16384x1 .f32 := View.ld x1 (Rect.unit (s := S16384x5) ![0, 3] S16384x1.size Facts₀.inb_S16384x5_S16384x1_0_3)
abbrev col4 : Vec F S16384x1 .f32 := View.ld x1 (Rect.unit (s := S16384x5) ![0, 4] S16384x1.size Facts₀.inb_S16384x5_S16384x1_0_4)

/-- The main class, the mass kept on it, the neighbouring class, the mass moved to it. -/
abbrev vIdx : IVec S16384 32 := k0_pay5 x0
abbrev vMain : FVec F S16384 .f32 := k0_pay11 x0
abbrev vNbIdx : IVec S16384 32 := k0_pay12 x0
abbrev vNb : FVec F S16384 .f32 := k0_pay13 x0
/-- The five scaled target masses. -/
abbrev vS0 : FVec F S16384 .f32 := k0_pay16 (vMain x0) (vNbIdx x0) (vNb x0) (k0_pay14 x0) k0_pay15
abbrev vS1 : FVec F S16384 .f32 := k0_pay17 (vIdx x0) (vMain x0) (vNbIdx x0) (vNb x0)
abbrev vS2 : FVec F S16384 .f32 := k0_pay18 (vIdx x0) (vMain x0) (vNbIdx x0) (vNb x0)
abbrev vS3 : FVec F S16384 .f32 := k0_pay19 (vIdx x0) (vMain x0) (vNbIdx x0) (vNb x0)
abbrev vS4 : FVec F S16384 .f32 := k0_pay20 (vIdx x0) (vMain x0) (vNbIdx x0) (vNb x0) 4#32
/-- Their maximum and the logarithm of the sum of their shifted exponentials. -/
abbrev vM : FVec F S16384 .f32 := k0_pay21 (vIdx x0) (vMain x0) (vNbIdx x0) (vNb x0) (vS0 x0) (vS1 x0) (vS2 x0) (vS3 x0) 4#32
abbrev vL : FVec F S16384 .f32 := k0_pay22 (vIdx x0) (vMain x0) (vNbIdx x0) (vNb x0) (vS0 x0) (vS1 x0) (vS2 x0) (vS3 x0) 4#32
/-- The scaled logits (the fourth is scaled later), their maximum, the logarithm of their sum of exponentials. -/
abbrev vU0 : FVec F S16384 .f32 := k0_pay23 (col0 x1)
abbrev vU1 : FVec F S16384 .f32 := k0_pay24 (col1 x1)
abbrev vU2 : FVec F S16384 .f32 := k0_pay25 (col2 x1)
abbrev vC3 : FVec F S16384 .f32 := k0_pay26 (col3 x1)
abbrev third : F .f32 := Named.named κ "inv_3" 0x3EAAAAAB#32
abbrev vU4 : FVec F S16384 .f32 := k0_pay28 (col4 x1)
abbrev vMq : FVec F S16384 .f32 := k0_pay29 (vU0 x1) (vU1 x1) (vU2 x1) (vC3 x1) third (col4 x1)
abbrev vLq : FVec F S16384 .f32 := k0_pay30 (vU0 x1) (vU1 x1) (vU2 x1) (vC3 x1) third (col4 x1)
/-- The first three terms summed, and the pieces of the fourth. -/
abbrev vT012 : FVec F S16384 .f32 :=
  k0_pay31 (vS0 x0) (vS1 x0) (vS2 x0) (vM x0) (vL x0) (vU0 x1) (vU1 x1) (vU2 x1) (vC3 x1) third (col4 x1)
abbrev vP3 : FVec F S16384 .f32 := k0_pay33 (vS3 x0) (vM x0) (vL x0)
abbrev vD3 : FVec F S16384 .f32 := k0_pay34 (vS3 x0) (vM x0) (vL x0) (vU0 x1) (vU1 x1) (vU2 x1) (vC3 x1) third (col4 x1)

/-- What the body stores over an accumulator holding `xo`: `xo` plus the sum of the block's 16384 losses. -/
def accum (xo : Vec F S1 .f32) : FVec F S1 .f32 :=
  k0_pay1 (vS4 x0) (vM x0) (vL x0) (vU4 x1) (vMq x1) (vLq x1) (vT012 x0 x1) (vP3 x0) (vD3 x0 x1) xo

/-- The vector of the block's losses, one per sample: the three terms already summed, plus the fourth, plus the fifth. -/
def losses : FVec F S16384 .f32 :=
  addf (addf (vT012 x0 x1) (mulf (vP3 x0) (vD3 x0 x1)))
    (mulf (exp (subf (subf (vS4 x0) (vM x0)) (vL x0)))
      (subf (subf (subf (vS4 x0) (vM x0)) (vL x0)) (subf (subf (vU4 x1) (vMq x1)) (vLq x1))))

/-- The accumulate payload is the found accumulator plus the lane sum of the losses, broadcast to the one element. -/
theorem accum_eq (xo : Vec F S1 .f32) :
    accum x0 x1 xo = addf (shapeCast S1 xo Facts₀.shapeCasts_S1_S1)
      (broadcast S1 (extractAt ![0, 0] (shapeCast S1x1
        (multiReduction .add [1] S1 (shapeCast S1x16384 (losses x0 x1) Facts₀.shapeCasts_S16384_S1x16384) 0x00000000#32
          Facts₀.reduces_S1x16384_S1 (.inl rfl) rfl) Facts₀.shapeCasts_S1_S1x1) Facts₀.inpos_S1x1_p0_0)) := rfl

end

end Cert.KernelIdeal.RowValue

end
-- ==== Proof.KernelBlocks.lean ====
/-
  What each control case of the body leaves in the one-element output block, as a value.

  At the first grid point the body zeroes the accumulator and then adds the block's sum to it; at the points in between
  it adds the block's sum to what it finds; at the last point it adds the block's sum and then scales the total.
  Each case's stores cover the block, so the block's final contents are the last store's payload, whose loads read the
  whole staging buffers (and, where a store precedes a load, that store's payload).
-/
import proofs.«113967_j22299470201498_2_alg».proof.Proof.Gen.KernelIdeal.Frame
import proofs.«113967_j22299470201498_2_alg».proof.Proof.KernelAccum
import Idealize.ShloMosaic.Lib.Pipeline.Value
import Idealize.ShloMosaic.Lib.Tactic

noncomputable section

namespace Cert.KernelIdeal.RowValue

open Cert.KernelIdeal Cert.KernelIdeal.Gen Idealize.ShloMosaic Idealize.ShloMosaic.TcCoe Idealize.SL.Sem

variable {F : FTy → Type} [FloatOps F] [Named F]

theorem hz1 : (![0] : Fin 1 → Nat) = fun _ => 0 := funext fun a => by fin_cases a; rfl

/-- In between (points 1 … 254): the accumulator found, plus the block's sum. -/
theorem out_B (c : Dev nD) (i : grid0.Coords) (a1 : Memref sig .tc .vmem S16384 .f32) (h1 : a1.IsWhole)
    (a2 : Memref sig .tc .vmem S16384x5 .f32) (h2 : a2.IsWhole) (a3 : Memref sig .tc .vmem S1 .f32) (h3 : a3.IsWhole)
    (hc0 : ¬cond0_0 i) (hc1 : ¬cond0_1 i) (x0 : Vec F S16384 .f32) (x1 : Vec F S16384x5 .f32) (xo : Vec F S1 .f32) :
    out0_B_2 c i a1 h1 a2 h2 a3 h3 hc0 hc1 x0 x1 xo = accum x0 x1 xo := by
  unfold out0_B_2
  rw [View.read_writes_eq_canon _ _ _ (cover0_B_2 c i a1 h1 a2 h2 a3 h3 hc0 hc1 x0 x1 xo)]
  unfold kernelRun0_B
  dsimp only
  sl_unfold_words
  rw [View.canon_unit_zero hz1]
  simp only [View.readAt_eq_ld, h1.read_unread, h2.read_unread, h3.read_unread, View.ld_unit_zero (S := S16384) hz1,
    View.ld_unit_zero (S := S1) hz1]
  rfl

/-- At the last point (255): the same, scaled by the final store. -/
theorem out_C (c : Dev nD) (i : grid0.Coords) (a1 : Memref sig .tc .vmem S16384 .f32) (h1 : a1.IsWhole)
    (a2 : Memref sig .tc .vmem S16384x5 .f32) (h2 : a2.IsWhole) (a3 : Memref sig .tc .vmem S1 .f32) (h3 : a3.IsWhole)
    (hc0 : ¬cond0_0 i) (hc1 : cond0_1 i) (x0 : Vec F S16384 .f32) (x1 : Vec F S16384x5 .f32) (xo : Vec F S1 .f32) :
    out0_C_2 c i a1 h1 a2 h2 a3 h3 hc0 hc1 x0 x1 xo = k0_pay2 (accum x0 x1 xo) := by
  unfold out0_C_2
  rw [View.read_writes_eq_canon _ _ _ (cover0_C_2 c i a1 h1 a2 h2 a3 h3 hc0 hc1 x0 x1 xo)]
  unfold kernelRun0_C
  dsimp only
  sl_unfold_words
  rw [View.canon_cons_unit_zero (S := S1) hz1, View.readCov_unit_zero (S := S1) _ hz1]
  simp only [View.readAt_eq_ld, h1.read_unread, h2.read_unread, h3.read_unread, View.ld_unit_zero (S := S16384) hz1,
    View.ld_unit_zero (S := S1) hz1]
  rfl

/-- At the first point (0): the zeroed accumulator, plus the block's sum. -/
theorem out_A (c : Dev nD) (i : grid0.Coords) (a1 : Memref sig .tc .vmem S16384 .f32) (h1 : a1.IsWhole)
    (a2 : Memref sig .tc .vmem S16384x5 .f32) (h2 : a2.IsWhole) (a3 : Memref sig .tc .vmem S1 .f32) (h3 : a3.IsWhole)
    (hc0 : cond0_0 i) (hc1 : ¬cond0_1 i) (x0 : Vec F S16384 .f32) (x1 : Vec F S16384x5 .f32) :
    out0_A_2 c i a1 h1 a2 h2 a3 h3 hc0 hc1 x0 x1 = accum x0 x1 (k0_pay3 (F := F)) := by
  unfold out0_A_2
  rw [View.read_writes_eq_canon _ _ _ (cover0_A_2 c i a1 h1 a2 h2 a3 h3 hc0 hc1 x0 x1)]
  unfold kernelRun0_A
  dsimp only
  sl_unfold_words
  rw [View.canon_cons_unit_zero (S := S1) hz1, View.readCov_unit_zero (S := S1) _ hz1]
  simp only [View.readAt_eq_ld, h1.read_unread, h2.read_unread, View.ld_unit_zero (S := S16384) hz1]
  rfl

end Cert.KernelIdeal.RowValue

end
-- ==== Proof.RowSpec.lean ====
/-
  One sample of the consistency loss, as a function of its six inputs — the score `x` and the five logits —
  written twice: the way the kernel computes it (`rowKer`) and the way the reference computes it, class by class
  (`termR`, summed in `rowRef`).

  Both start from the same soft target: the score is scaled by 5 and clipped to [0, 4]; its floor is the main class
  `idx`; the distance of the score to that class's centre, times 5, is moved to the neighbouring class on the side
  the score lies on (none at the two ends). The five target masses are divided by the temperature 3, and so are the
  logits; both rows go through a softmax over the five classes, and the sample's loss is the sum over the classes of
  p · (log p − log q).

  The two spellings differ in five places: the centre is taken from the floor itself or from the floor converted to an
  integer and back; a mass is selected by a comparison or multiplied by the comparison's 0/1 value; the division by 3
  is a product with the named third; the row maximum is a nested `max` or a fold from −∞; and the target's
  probability and its logarithm are `exp (a − log S)` and `a − log S`, or `exp a / S` and `log (exp a / S)`.
-/
import Idealize.ShloMosaic.PureOps.Ideal
import Idealize.ShloMosaic.PureOps.Ideal.Laws

noncomputable section

namespace Cert.KL

open Idealize.ShloMosaic

/-! ## The float words the two programs spell -/

def c0 : EReal := Ideal.ofBits .f32 0x00000000#32      -- 0
def chalf : EReal := Ideal.ofBits .f32 0x3F000000#32   -- 1/2
def c1 : EReal := Ideal.ofBits .f32 0x3F800000#32      -- 1
def c3 : EReal := Ideal.ofBits .f32 0x40400000#32      -- 3
def c4 : EReal := Ideal.ofBits .f32 0x40800000#32      -- 4
def c5 : EReal := Ideal.ofBits .f32 0x40A00000#32      -- 5
def cN : EReal := Ideal.ofBits .f32 0x4A800000#32      -- 4194304, the number of samples
def c9N : EReal := Ideal.ofBits .f32 0x36100000#32     -- 9 / 4194304
def cninf : EReal := Ideal.ofBits .f32 0xFF800000#32   -- −∞
/-- The kernel's named reciprocal of the temperature. -/
def inv3 : EReal := ((1 / 3 : ℝ) : EReal)

/-! ## The soft target -/

/-- The score times 5, clipped to [0, 4]. -/
def clipf (x : EReal) : EReal := min c4 (max c0 (x * c5))
/-- Its floor, as a float. -/
def flo (x : EReal) : EReal := Ideal.liftRound Int.floor (clipf x)
/-- The main class. -/
def idx (x : EReal) : BitVec 32 := Ideal.fptosi 32 (flo x)

/-- The class centre, from the floor itself (the kernel's). -/
def ctrK (x : EReal) : EReal := Ideal.div (flo x + chalf) c5
/-- The class centre, from the floor converted to an integer and back (the reference's). -/
def ctrR (x : EReal) : EReal := Ideal.div ((((idx x).toInt : ℝ) : EReal) + chalf) c5

/-- Five times the distance of the score to the centre `ctr`. -/
def dist (x ctr : EReal) : EReal := max (x - ctr) (-(x - ctr)) * c5
/-- The score lies below the centre and there is a class below. -/
def lo (x ctr : EReal) : BitVec 1 := IntOp.andi (IntOp.cmpi .sgt (idx x) 0#32) (Ideal.cmp .olt x ctr)
/-- The score lies above the centre and there is a class above. -/
def hi (x ctr : EReal) : BitVec 1 := IntOp.andi (IntOp.cmpi .slt (idx x) 4#32) (Ideal.cmp .ogt x ctr)
def nb (x ctr : EReal) : BitVec 1 := IntOp.ori (lo x ctr) (hi x ctr)
/-- The mass that stays on the main class. -/
def mainv (x ctr : EReal) : EReal := Scalar.select (nb x ctr) (c1 - dist x ctr) c1
/-- The mass that moves to the neighbour. -/
def nbv (x ctr : EReal) : EReal := Scalar.select (nb x ctr) (dist x ctr) c0
/-- The neighbouring class. -/
def nbidx (x ctr : EReal) : BitVec 32 :=
  IntOp.addi (IntOp.subi (idx x) ((lo x ctr).setWidth 32)) ((hi x ctr).setWidth 32)

/-- The target mass of class `c`, selected (the kernel's). -/
def softK (x : EReal) (c : BitVec 32) : EReal :=
  Scalar.select (IntOp.cmpi .eq (idx x) c) (mainv x (ctrK x)) c0
    + Scalar.select (IntOp.cmpi .eq (nbidx x (ctrK x)) c) (nbv x (ctrK x)) c0
/-- The target mass of class `c`, by 0/1 factors (the reference's). -/
def softR (x : EReal) (c : BitVec 32) : EReal :=
  mainv x (ctrR x) * (((IntOp.cmpi .eq c (idx x)).toNat : ℝ) : EReal)
    + nbv x (ctrR x) * (((IntOp.cmpi .eq c (nbidx x (ctrR x))).toNat : ℝ) : EReal)

def sK (x : EReal) (c : BitVec 32) : EReal := softK x c * inv3
def sR (x : EReal) (c : BitVec 32) : EReal := Ideal.div (softR x c) c3
def uK (l : EReal) : EReal := l * inv3
def uR (l : EReal) : EReal := Ideal.div l c3

/-! ## The kernel's row -/

def max5 (a0 a1 a2 a3 a4 : EReal) : EReal := max (max (max (max a0 a1) a2) a3) a4
def sumexp5 (a0 a1 a2 a3 a4 M : EReal) : EReal :=
  Ideal.exp (a0 - M) + Ideal.exp (a1 - M) + Ideal.exp (a2 - M) + Ideal.exp (a3 - M) + Ideal.exp (a4 - M)
/-- One class's term: p (log p − log q) with log p = a − M − L and log q = b − Mq − Lq. -/
def termK (a M L b Mq Lq : EReal) : EReal := Ideal.exp (a - M - L) * ((a - M - L) - (b - Mq - Lq))
def rowK (s0 s1 s2 s3 s4 u0 u1 u2 u3 u4 : EReal) : EReal :=
  c0 + termK s0 (max5 s0 s1 s2 s3 s4) (Ideal.log (sumexp5 s0 s1 s2 s3 s4 (max5 s0 s1 s2 s3 s4)))
          u0 (max5 u0 u1 u2 u3 u4) (Ideal.log (sumexp5 u0 u1 u2 u3 u4 (max5 u0 u1 u2 u3 u4)))
     + termK s1 (max5 s0 s1 s2 s3 s4) (Ideal.log (sumexp5 s0 s1 s2 s3 s4 (max5 s0 s1 s2 s3 s4)))
          u1 (max5 u0 u1 u2 u3 u4) (Ideal.log (sumexp5 u0 u1 u2 u3 u4 (max5 u0 u1 u2 u3 u4)))
     + termK s2 (max5 s0 s1 s2 s3 s4) (Ideal.log (sumexp5 s0 s1 s2 s3 s4 (max5 s0 s1 s2 s3 s4)))
          u2 (max5 u0 u1 u2 u3 u4) (Ideal.log (sumexp5 u0 u1 u2 u3 u4 (max5 u0 u1 u2 u3 u4)))
     + termK s3 (max5 s0 s1 s2 s3 s4) (Ideal.log (sumexp5 s0 s1 s2 s3 s4 (max5 s0 s1 s2 s3 s4)))
          u3 (max5 u0 u1 u2 u3 u4) (Ideal.log (sumexp5 u0 u1 u2 u3 u4 (max5 u0 u1 u2 u3 u4)))
     + termK s4 (max5 s0 s1 s2 s3 s4) (Ideal.log (sumexp5 s0 s1 s2 s3 s4 (max5 s0 s1 s2 s3 s4)))
          u4 (max5 u0 u1 u2 u3 u4) (Ideal.log (sumexp5 u0 u1 u2 u3 u4 (max5 u0 u1 u2 u3 u4)))
/-- The kernel's loss of one sample. -/
def rowKer (x l0 l1 l2 l3 l4 : EReal) : EReal :=
  rowK (sK x 0#32) (sK x 1#32) (sK x 2#32) (sK x 3#32) (sK x 4#32) (uK l0) (uK l1) (uK l2) (uK l3) (uK l4)

/-! ## The reference's row -/

/-- The row maximum as the reference takes it: a fold from −∞, once more against −∞. -/
def maxR (a : Fin 5 → EReal) : EReal := max cninf ((Finset.univ : Finset (Fin 5)).fold max cninf a)
def sumexpR (a : Fin 5 → EReal) : EReal := c0 + ∑ k : Fin 5, Ideal.exp (a k - maxR a)
/-- The softmax probability of class `k`. -/
def probR (a : Fin 5 → EReal) (k : Fin 5) : EReal := Ideal.div (Ideal.exp (a k - maxR a)) (sumexpR a)
/-- The log-softmax of class `k`. -/
def logsmR (a : Fin 5 → EReal) (k : Fin 5) : EReal := (a k - maxR a) - Ideal.log (sumexpR a)
/-- The reference's term of class `k`: p (log p − log q). -/
def termR (s u : Fin 5 → EReal) (k : Fin 5) : EReal := probR s k * (Ideal.log (probR s k) - logsmR u k)
/-- The reference's loss of one sample. -/
def rowRef (x : EReal) (l : Fin 5 → EReal) : EReal :=
  ∑ k : Fin 5, termR (fun c => sR x (BitVec.ofNat 32 c.val)) (fun c => uR (l c)) k

end Cert.KL

end
-- ==== Proof.KernelRowIdeal.lean ====
/-
  The block's losses read at a sample, on the extended reals: sample `j` of a block is the one-sample loss `KL.rowKer`
  of the block's score `j` and of row `j` of its logits. Every operation of the body is elementwise, so the vector of
  losses at `j` is the same expression of the loads at `j`; the five column loads are read at `j` through their
  recast from [16384, 1] to [16384], and the named third is the real 1/3.
-/
import proofs.«113967_j22299470201498_2_alg».proof.Proof.KernelAccum
import proofs.«113967_j22299470201498_2_alg».proof.Proof.RowSpec
import Idealize.ShloMosaic.Lib.ValueIdx
import Idealize.ShloMosaic.Lib.ValueLayout
import Idealize.ShloMosaic.PureOps.Ideal.Laws
import Idealize.ShloMosaic.PureOps.IdealRules

noncomputable section

namespace Cert.KernelIdeal.RowValue

open Cert.KernelIdeal Cert.KernelIdeal.Gen Idealize.ShloMosaic Idealize.ShloMosaic.ValueIdx

/-- The kernel's named constant denotes 1/3, by the certificate's table. -/
theorem third_eq : (third : Ideal .f32) = Cert.KL.inv3 :=
  IdealRules.named_const.ideal_named_scalar _ _ _ _ rfl

section
variable (x0 : Vec Ideal S16384 .f32) (x1 : Vec Ideal S16384x5 .f32) (j : Fin 16384)

/-- A loaded column, recast to a vector, at sample `j`: the block's entry (j, k). -/
theorem col0_apply : shapeCast S16384 (col0 x1) Facts₀.shapeCasts_S16384x1_S16384 (ix1 j) = x1 (ix2 j 0) := by
  rw [shapeCast_apply (col0 x1) Facts₀.shapeCasts_S16384x1_S16384 (ix1 j) (ix2 j 0)
    (by rw [Shape.rowMajor_val_two, Shape.rowMajor_val_one]; show j.val * 1 + 0 = j.val; omega)]
  refine congrArg x1 (funext fun a => Fin.ext ?_)
  match a with
  | ⟨0, _⟩ => show 0 + 1 * j.val = j.val; omega
  | ⟨1, _⟩ => show 0 + 1 * 0 = 0; omega

theorem col1_apply : shapeCast S16384 (col1 x1) Facts₀.shapeCasts_S16384x1_S16384 (ix1 j) = x1 (ix2 j 1) := by
  rw [shapeCast_apply (col1 x1) Facts₀.shapeCasts_S16384x1_S16384 (ix1 j) (ix2 j 0)
    (by rw [Shape.rowMajor_val_two, Shape.rowMajor_val_one]; show j.val * 1 + 0 = j.val; omega)]
  refine congrArg x1 (funext fun a => Fin.ext ?_)
  match a with
  | ⟨0, _⟩ => show 0 + 1 * j.val = j.val; omega
  | ⟨1, _⟩ => show 1 + 1 * 0 = 1; omega

theorem col2_apply : shapeCast S16384 (col2 x1) Facts₀.shapeCasts_S16384x1_S16384 (ix1 j) = x1 (ix2 j 2) := by
  rw [shapeCast_apply (col2 x1) Facts₀.shapeCasts_S16384x1_S16384 (ix1 j) (ix2 j 0)
    (by rw [Shape.rowMajor_val_two, Shape.rowMajor_val_one]; show j.val * 1 + 0 = j.val; omega)]
  refine congrArg x1 (funext fun a => Fin.ext ?_)
  match a with
  | ⟨0, _⟩ => show 0 + 1 * j.val = j.val; omega
  | ⟨1, _⟩ => show 2 + 1 * 0 = 2; omega

theorem col3_apply : shapeCast S16384 (col3 x1) Facts₀.shapeCasts_S16384x1_S16384 (ix1 j) = x1 (ix2 j 3) := by
  rw [shapeCast_apply (col3 x1) Facts₀.shapeCasts_S16384x1_S16384 (ix1 j) (ix2 j 0)
    (by rw [Shape.rowMajor_val_two, Shape.rowMajor_val_one]; show j.val * 1 + 0 = j.val; omega)]
  refine congrArg x1 (funext fun a => Fin.ext ?_)
  match a with
  | ⟨0, _⟩ => show 0 + 1 * j.val = j.val; omega
  | ⟨1, _⟩ => show 3 + 1 * 0 = 3; omega

theorem col4_apply : shapeCast S16384 (col4 x1) Facts₀.shapeCasts_S16384x1_S16384 (ix1 j) = x1 (ix2 j 4) := by
  rw [shapeCast_apply (col4 x1) Facts₀.shapeCasts_S16384x1_S16384 (ix1 j) (ix2 j 0)
    (by rw [Shape.rowMajor_val_two, Shape.rowMajor_val_one]; show j.val * 1 + 0 = j.val; omega)]
  refine congrArg x1 (funext fun a => Fin.ext ?_)
  match a with
  | ⟨0, _⟩ => show 0 + 1 * j.val = j.val; omega
  | ⟨1, _⟩ => show 4 + 1 * 0 = 4; omega

/-- The five scaled target masses at sample `j`. -/
theorem s0_apply : vS0 x0 (ix1 j) = Cert.KL.sK (x0 (ix1 j)) 0#32 := by
  show _ * (third : Ideal .f32) = _ * Cert.KL.inv3; rw [third_eq]; rfl
theorem s1_apply : vS1 x0 (ix1 j) = Cert.KL.sK (x0 (ix1 j)) 1#32 := by
  show _ * (third : Ideal .f32) = _ * Cert.KL.inv3; rw [third_eq]; rfl
theorem s2_apply : vS2 x0 (ix1 j) = Cert.KL.sK (x0 (ix1 j)) 2#32 := by
  show _ * (third : Ideal .f32) = _ * Cert.KL.inv3; rw [third_eq]; rfl
theorem s3_apply : vS3 x0 (ix1 j) = Cert.KL.sK (x0 (ix1 j)) 3#32 := by
  show _ * (third : Ideal .f32) = _ * Cert.KL.inv3; rw [third_eq]; rfl
theorem s4_apply : vS4 x0 (ix1 j) = Cert.KL.sK (x0 (ix1 j)) 4#32 := by
  show _ * (third : Ideal .f32) = _ * Cert.KL.inv3; rw [third_eq]; rfl

/-- The five scaled logits at sample `j`. -/
theorem u0_apply : vU0 x1 (ix1 j) = Cert.KL.uK (x1 (ix2 j 0)) := by
  show shapeCast S16384 (col0 x1) _ (ix1 j) * (third : Ideal .f32) = _; rw [col0_apply, third_eq]; rfl
theorem u1_apply : vU1 x1 (ix1 j) = Cert.KL.uK (x1 (ix2 j 1)) := by
  show shapeCast S16384 (col1 x1) _ (ix1 j) * (third : Ideal .f32) = _; rw [col1_apply, third_eq]; rfl
theorem u2_apply : vU2 x1 (ix1 j) = Cert.KL.uK (x1 (ix2 j 2)) := by
  show shapeCast S16384 (col2 x1) _ (ix1 j) * (third : Ideal .f32) = _; rw [col2_apply, third_eq]; rfl
theorem u3_apply : k0_pay27 (vC3 x1) (third : Ideal .f32) (ix1 j) = Cert.KL.uK (x1 (ix2 j 3)) := by
  show shapeCast S16384 (col3 x1) _ (ix1 j) * (third : Ideal .f32) = _; rw [col3_apply, third_eq]; rfl
theorem u4_apply : vU4 x1 (ix1 j) = Cert.KL.uK (x1 (ix2 j 4)) := by
  show shapeCast S16384 (col4 x1) _ (ix1 j) * (third : Ideal .f32) = _; rw [col4_apply, third_eq]; rfl

/-- The loss of sample `j` of the block. -/
theorem losses_apply : losses x0 x1 (ix1 j)
    = Cert.KL.rowKer (x0 (ix1 j)) (x1 (ix2 j 0)) (x1 (ix2 j 1)) (x1 (ix2 j 2)) (x1 (ix2 j 3)) (x1 (ix2 j 4)) := by
  show Cert.KL.rowK (vS0 x0 (ix1 j)) (vS1 x0 (ix1 j)) (vS2 x0 (ix1 j)) (vS3 x0 (ix1 j)) (vS4 x0 (ix1 j))
    (vU0 x1 (ix1 j)) (vU1 x1 (ix1 j)) (vU2 x1 (ix1 j)) (k0_pay27 (vC3 x1) (third : Ideal .f32) (ix1 j)) (vU4 x1 (ix1 j)) = _
  rw [s0_apply, s1_apply, s2_apply, s3_apply, s4_apply, u0_apply, u1_apply, u2_apply, u3_apply, u4_apply]
  rfl

end

end Cert.KernelIdeal.RowValue

end
-- ==== Proof.KernelBlockSum.lean ====
/-
  The accumulate payload read on the extended reals: the accumulator found, plus the sum over the block's 16384 samples
  of the one-sample loss. The lane reduction of the [1, 16384] recast of the losses, from the zero word, is their plain
  sum; the casts around it ([16384] to [1, 16384], [1] to [1, 1], the extraction of the one element and its broadcast
  back to [1]) move nothing.
-/
import proofs.«113967_j22299470201498_2_alg».proof.Proof.KernelRowIdeal

noncomputable section

namespace Cert.KernelIdeal.RowValue

open Cert.KernelIdeal Cert.KernelIdeal.Gen Idealize.ShloMosaic Idealize.ShloMosaic.ValueIdx

/-- The reduced index of the one row, with lane `k` put back, is (0, k). -/
theorem lift_lane (h : S1x16384.Reduces [1] S1) (u : Fin 1) (k : Fin (S1x16384.size 1)) :
    h.lift (ix1 u) k = ix2 u (⟨k.val, k.isLt⟩ : Fin 16384) := by
  funext c; apply Fin.ext
  fin_cases c <;> rfl

/-- The block's sum of losses. -/
def blockSum (x0 : Vec Ideal S16384 .f32) (x1 : Vec Ideal S16384x5 .f32) : EReal :=
  ∑ k : Fin 16384, Cert.KL.rowKer (x0 (ix1 k)) (x1 (ix2 k 0)) (x1 (ix2 k 1)) (x1 (ix2 k 2)) (x1 (ix2 k 3)) (x1 (ix2 k 4))

theorem accum_apply (x0 : Vec Ideal S16384 .f32) (x1 : Vec Ideal S16384x5 .f32) (xo : Vec Ideal S1 .f32) (i : S1.Idx) :
    accum x0 x1 xo i = xo i + blockSum x0 x1 := by
  rw [accum_eq, addf_apply, shapeCast_self, broadcast_apply]
  refine congrArg (xo i + ·) ?_
  have e : (fun a => (⟨(![0, 0] : Fin 2 → Nat) a, Facts₀.inpos_S1x1_p0_0 a⟩ : Fin (S1x1.size a)))
      = ix2 (0 : Fin 1) (0 : Fin 1) := funext fun a => Fin.ext (by match a with | ⟨0, _⟩ => rfl | ⟨1, _⟩ => rfl)
  unfold extractAt
  rw [e, shapeCast_a_1a_apply]
  refine (Ideal.multiReduction_add_single _ 0x00000000#32 Facts₀.reduces_S1x16384_S1 (.inl rfl) rfl (ix1 0)).trans ?_
  refine Finset.sum_congr rfl fun k _ => ?_
  rw [lift_lane, shapeCast_a_1a_apply]
  exact losses_apply x0 x1 ⟨k.val, k.isLt⟩

end Cert.KernelIdeal.RowValue

end
-- ==== Proof.KernelTotal.lean ====
/-
  The kernel's result as one expression of its two argument arrays.

  The one-element output block is carried from grid point to grid point: point 0 leaves 0 plus its block's sum of losses,
  each later point adds its own block's sum, and the last point, 255, scales the total by 9/4194304 before the block is
  written back — the only write-back of the run, and it covers the whole one-element array. The host then recasts that
  array to a scalar.
-/
import proofs.«113967_j22299470201498_2_alg».proof.Proof.KernelBlocks
import proofs.«113967_j22299470201498_2_alg».proof.Proof.KernelBlockSum
import Idealize.ShloMosaic.Lib.Pipeline.Value
import Idealize.ShloMosaic.Lib.StableHlo.Run
import Idealize.ShloMosaic.Lib.Tactic

noncomputable section

namespace Cert.KernelIdeal.Total

open Cert.KernelIdeal Cert.KernelIdeal.Gen Cert.KernelIdeal.RowValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The sum of the losses of block `t`. -/
def blockTerm (c : Dev nD) (t : Fin cfg0.N) : EReal :=
  blockSum (iblk m c 0 t : Vec Ideal S16384 .f32) (iblk m c 1 t : Vec Ideal S16384x5 .f32)

/-- The running total after point `n`: 0 plus the blocks' sums, left to right. -/
def chain (c : Dev nD) : (n : ℕ) → n < cfg0.N → EReal
  | 0, h => Cert.KL.c0 + blockTerm m c ⟨0, h⟩
  | n + 1, h => chain c n (Nat.lt_of_succ_lt h) + blockTerm m c ⟨n + 1, h⟩

/-- Before the last point the output block holds the running total. -/
theorem outsAt_eq (c : Dev nD) : ∀ (n : ℕ) (h : n < cfg0.N), n < 255 → outsAt0 m c n h = fun _ => chain m c n h
  | 0, h, _ =>
    ((outsAt0_A m c ⟨0, h⟩ rfl (by show ¬ 0 % 256 = 255; decide)).trans (out_A ..)).trans
      (funext fun i => (accum_apply _ _ _ i).trans rfl)
  | n + 1, h, hlt => by
    have hN : cfg0.N = 256 := N_0
    have h0 : ¬(⟨n + 1, h⟩ : Fin cfg0.N).val % 256 = 0 := by dsimp only; omega
    have h1 : ¬(⟨n + 1, h⟩ : Fin cfg0.N).val % 256 = 255 := by dsimp only; omega
    refine ((outsAt0_B m c ⟨n + 1, h⟩ h0 h1).trans (out_B ..)).trans (funext fun i => ?_)
    rw [accum_apply]
    show outsAt0 m c n _ i + _ = chain m c n _ + _
    rw [outsAt_eq c n _ (by omega)]
    rfl

theorem lt255 : 255 < cfg0.N := by rw [show cfg0.N = 256 from N_0]; decide

/-- The last grid point. -/
abbrev tLast : Fin cfg0.N := ⟨255, lt255⟩

/-- The kernel's total: the running total after the last point, scaled. -/
def total (c : Dev nD) : EReal := chain m c 255 lt255 * Cert.KL.c9N

/-- After the last point the output block holds the scaled total. -/
theorem outsAt_last (c : Dev nD) : outsAt0 m c 255 lt255 = fun _ => total m c := by
  have h0 : ¬(tLast : Fin cfg0.N).val % 256 = 0 := by decide
  have h1 : (tLast : Fin cfg0.N).val % 256 = 255 := rfl
  refine ((outsAt0_C m c tLast h0 h1).trans (out_C ..)).trans (funext fun i => ?_)
  unfold k0_pay2
  rw [mulf_apply, shapeCast_self, accum_apply]
  show (outsAt0 m c 254 _ i + _) * _ = (chain m c 254 _ + _) * _
  rw [outsAt_eq m c 254 _ (by decide)]
  rfl

/-- The result array's contents: its one element is the total. -/
abbrev result (c : Dev nD) : Buf (Elt Ideal) ((c : Thread nD τ).loc main_v0) := fun _ => total m c

/-- The one write-back, at the last point, writes it: the block at index 0 of the one-element array is the array. -/
theorem flushed_eq (c : Dev nD) (t : Fin cfg0.N) (hf : (cfg0.win 2).flush t = true) :
    (dats m 0 c).flushed 2 t = ((cfg0.win 2).blk t).view.read (Elt Ideal) (result m c) := by
  have hN : cfg0.N = 256 := N_0
  have h3 : t.val = 255 := by have := (flush0_2 t).mp hf; have := t.isLt; omega
  obtain rfl : t = tLast := Fin.ext h3
  show (cfg0.win 2).cut (grid0.coords tLast) ((dats m 0 c).after 2 tLast) = _
  rw [after0_2, outsAt_last]
  have hz' : (fun a => win0_2.index tLast a * main_v0.ty.shape.size a) = fun _ => 0 := funext fun a => by fin_cases a; rfl
  exact (Memref.read_access_unit_zero (Elt Ideal) main_v0 hz' (fun a => by rw [congrFun hz' a]; simp) (result m c)).symm

/-- So the result array ends holding the total. -/
theorem final_o (c : Dev nD) : (dats m 0 c).arrAt 2 cfg0.N = result m c :=
  (dats m 0 c).arrAt_eq_of_cover 2 (result m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from rfl, show win0_2.xsize (grid0.coords tLast) 0 = 1 from by decide +kernel]; omega⟩

/-- The host's recast of the one-element array to a scalar: the total. -/
theorem tail_eq (c : Dev nD) :
    Pipeline.afterTail₀ cfgs (dats m) 0 (V0 m) [hostOps1] c main_v1 = (fun _ => total m c) := by
  unfold Pipeline.afterTail₀
  show StableHlo.after hostOps1 _ (Proc.devRef .tc main_v1) = _
  after_results
  have e : Pipeline.withArrays (cfgs 0).spec c (V0 m c) (fun w => (dats m 0 c).arrAt w (cfgs 0).N)
      (Proc.devRef .tc main_v0) = result m c :=
    (Pipeline.withArrays_arr spec0 launch0.win.arr_inj c _ _ 2).trans (final_o m c)
  rw [e]
  rfl

/-- The kernel's run, read: the scalar result is the total, and the argument arrays end unchanged. -/
theorem run : θ_run defs (onTc (τ := τ) (main (F := Ideal))) ⟨m, fun _ => 0, ρ⟩ fun r => ∀ c : Dev nD,
      r.2.mem ((c.tc : Thread nD τ).loc main_v1) = (fun _ => total m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Total

end
-- ==== Proof.LibAfterAppend.lean ====
/-
  A straight line of host operations run in two stretches: the fold of the operations' results over a valuation
  (`StableHlo.after`) of a concatenation is the fold of the second stretch over the fold of the first. It lets a
  long line be read stretch by stretch, each against an arbitrary valuation.
-/
import Idealize.ShloMosaic.Lib.StableHlo.Run

namespace Idealize.ShloMosaic.StableHlo

variable {τ : Topo} {sig : RefSig} {Val : EltTy → Type}

/-- The results after `a ++ b` are the results after `b` of the results after `a`. -/
theorem after_append (a b : List (HloOp τ sig Val)) (V : Valuation τ sig Val) :
    after (a ++ b) V = after b (after a V) := by
  induction a generalizing V with
  | nil => rfl
  | cons op a ih => exact ih (op.result V)

end Idealize.ShloMosaic.StableHlo
-- ==== Proof.LibTypedRef.lean ====
/-
  Typed references of a module-local function's operations. An operation of an outlined function reads and writes its
  buffers through typed references: a result is transported to its buffer's type when written and back to the value's
  type when the next operation reads it. The two transports cancel, so a line of such operations composes to the
  plain composition of their functions.
-/
import Idealize.ShloMosaic.Lib.StableHlo

namespace Idealize.ShloMosaic.StableHlo.TRef

variable {sig : RefSig} {Val : EltTy → Type} {T : BufTy}

/-- Written to the buffer and read back: the value. -/
theorem ofBuf_toBuf (x : TRef sig T) (v : T.Contents Val) : x.ofBuf (x.toBuf v) = v := by
  obtain ⟨r, ty_eq, h1, h2⟩ := x
  subst ty_eq
  rfl

/-- Read from the buffer and written back: the contents. -/
theorem toBuf_ofBuf (x : TRef sig T) (v : x.ref.ty.Contents Val) : x.toBuf (x.ofBuf v) = v := by
  obtain ⟨r, ty_eq, h1, h2⟩ := x
  subst ty_eq
  rfl

end Idealize.ShloMosaic.StableHlo.TRef
-- ==== Proof.RefRun.lean ====
/-
  The reference's run, read back stretch by stretch.

  The reference is one straight line of 117 host operations. Its line is cut into six consecutive stretches, and each
  stretch is read against an ARBITRARY valuation of the buffers: what the stretch leaves in the few buffers a later
  stretch reads, as the stage functions of the program's arguments, given that the buffers it reads hold their stage
  values. The results after a concatenation are the results of the second stretch over the results of the first, so the
  six readings compose to the line's: the result buffer ends at the last stage of the two argument arrays.
-/
import proofs.«113967_j22299470201498_2_alg».proof.Proof.RefRunOps
import proofs.«113967_j22299470201498_2_alg».proof.Proof.RefRead
import proofs.«113967_j22299470201498_2_alg».proof.Proof.LibAfterAppend
import proofs.«113967_j22299470201498_2_alg».proof.Proof.LibTypedRef

noncomputable section

namespace Cert.ReferenceIdeal.RunHand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

section Stretches

variable (W : Valuation τ sig (Elt F)) (x0 : (⟨S4194304, .f32⟩ : BufTy).Contents (Elt F)) (x1 : (⟨S4194304x5, .f32⟩ : BufTy).Contents (Elt F))

/-! ### Stretch A: the main class, its centre, the distance -/

theorem A_v4 (h0 : W (Proc.devRef .tc main_arg0) = x0) : after opsA W (Proc.devRef .tc main_v4) = val_main_v4 x0 := by
  after_results_simp; rw [h0]; rfl
theorem A_v9 (h0 : W (Proc.devRef .tc main_arg0) = x0) : after opsA W (Proc.devRef .tc main_v9) = val_main_v9 x0 := by
  after_results_simp; rw [h0]; rfl
theorem A_v13 (h0 : W (Proc.devRef .tc main_arg0) = x0) : after opsA W (Proc.devRef .tc main_v13) = val_main_v13 x0 := by
  after_results_simp; rw [h0]; rfl
theorem A_arg0 : after opsA W (Proc.devRef .tc main_arg0) = W (Proc.devRef .tc main_arg0) := by after_results_simp
theorem A_arg1 : after opsA W (Proc.devRef .tc main_arg1) = W (Proc.devRef .tc main_arg1) := by after_results_simp

/-! ### Stretch B: the side conditions, the two masses, the neighbouring class -/

theorem B_v25 (h0 : W (Proc.devRef .tc main_arg0) = x0) (h4 : W (Proc.devRef .tc main_v4) = val_main_v4 x0)
    (h9 : W (Proc.devRef .tc main_v9) = val_main_v9 x0) (h13 : W (Proc.devRef .tc main_v13) = val_main_v13 x0) :
    after opsB W (Proc.devRef .tc main_v25) = val_main_v25 x0 := by
  after_results_simp; rw [h0, h4, h9, h13]; rfl
theorem B_v29 (h0 : W (Proc.devRef .tc main_arg0) = x0) (h4 : W (Proc.devRef .tc main_v4) = val_main_v4 x0)
    (h9 : W (Proc.devRef .tc main_v9) = val_main_v9 x0) :
    after opsB W (Proc.devRef .tc main_v29) = val_main_v29 x0 := by
  after_results_simp; rw [h0, h4, h9]; rfl
theorem B_v30 (h0 : W (Proc.devRef .tc main_arg0) = x0) (h4 : W (Proc.devRef .tc main_v4) = val_main_v4 x0)
    (h9 : W (Proc.devRef .tc main_v9) = val_main_v9 x0) (h13 : W (Proc.devRef .tc main_v13) = val_main_v13 x0) :
    after opsB W (Proc.devRef .tc main_v30) = val_main_v30 x0 := by
  after_results_simp; rw [h0, h4, h9, h13]; rfl
theorem B_v4 : after opsB W (Proc.devRef .tc main_v4) = W (Proc.devRef .tc main_v4) := by after_results_simp
theorem B_arg1 : after opsB W (Proc.devRef .tc main_arg1) = W (Proc.devRef .tc main_arg1) := by after_results_simp

/-! ### Stretch C: the five target masses -/

theorem C_v50 (h4 : W (Proc.devRef .tc main_v4) = val_main_v4 x0) (h25 : W (Proc.devRef .tc main_v25) = val_main_v25 x0)
    (h29 : W (Proc.devRef .tc main_v29) = val_main_v29 x0) (h30 : W (Proc.devRef .tc main_v30) = val_main_v30 x0) :
    after opsC W (Proc.devRef .tc main_v50) = val_main_v50 x0 := by
  after_results_simp; rw [h4, h25, h29, h30]; rfl
theorem C_arg1 : after opsC W (Proc.devRef .tc main_arg1) = W (Proc.devRef .tc main_arg1) := by after_results_simp

/-! ### Stretch D: the targets' softmax -/

theorem D_v63 (h50 : W (Proc.devRef .tc main_v50) = val_main_v50 x0) :
    after opsD W (Proc.devRef .tc main_v63) = val_main_v63 x0 := by
  after_results_simp; rw [h50]; rfl
theorem D_arg1 : after opsD W (Proc.devRef .tc main_arg1) = W (Proc.devRef .tc main_arg1) := by after_results_simp

/-! ### Stretch E: the logits' log-softmax -/

set_option maxRecDepth 200000 in
/-- Every operation of this stretch but its first three reads and writes through typed references; a value written
    through one and read back through the same one is the value. -/
theorem E_v66 (h1 : W (Proc.devRef .tc main_arg1) = x1) : after opsE W (Proc.devRef .tc main_v66) = val_main_v66 x1 := by
  after_results_simp; rw [h1]; simp only [TRef.ofBuf_toBuf]; rfl
theorem E_v63 : after opsE W (Proc.devRef .tc main_v63) = W (Proc.devRef .tc main_v63) := by after_results_simp

/-! ### Stretch F: the sum and its scaling -/

theorem F_v73 (h63 : W (Proc.devRef .tc main_v63) = val_main_v63 x0) (h66 : W (Proc.devRef .tc main_v66) = val_main_v66 x1) :
    after opsF W (Proc.devRef .tc main_v73) = val_main_v73 x0 x1 := by
  after_results_simp; rw [h63, h66]; rfl

end Stretches

/-- The whole line: the result buffer ends at the last stage of the two argument arrays. -/
theorem result_eq (V : Valuation τ sig (Elt F)) (x0 : (⟨S4194304, .f32⟩ : BufTy).Contents (Elt F)) (x1 : (⟨S4194304x5, .f32⟩ : BufTy).Contents (Elt F))
    (h0 : V (Proc.devRef .tc main_arg0) = x0) (h1 : V (Proc.devRef .tc main_arg1) = x1) :
    after ops V (Proc.devRef .tc main_v73) = val_main_v73 x0 x1 := by
  rw [ops_split, after_append, after_append, after_append, after_append, after_append]
  have hA0 := (A_arg0 V).trans h0
  have hA1 := (A_arg1 V).trans h1
  have hA4 := A_v4 V x0 h0
  have hA9 := A_v9 V x0 h0
  have hA13 := A_v13 V x0 h0
  have hB4 := (B_v4 (after opsA V)).trans hA4
  have hB1 := (B_arg1 (after opsA V)).trans hA1
  have hB25 := B_v25 (after opsA V) x0 hA0 hA4 hA9 hA13
  have hB29 := B_v29 (after opsA V) x0 hA0 hA4 hA9
  have hB30 := B_v30 (after opsA V) x0 hA0 hA4 hA9 hA13
  have hC50 := C_v50 (after opsB (after opsA V)) x0 hB4 hB25 hB29 hB30
  have hC1 := (C_arg1 (after opsB (after opsA V))).trans hB1
  have hD63 := D_v63 (after opsC (after opsB (after opsA V))) x0 hC50
  have hD1 := (D_arg1 (after opsC (after opsB (after opsA V)))).trans hC1
  have hE66 := E_v66 (after opsD (after opsC (after opsB (after opsA V)))) x1 hD1
  have hE63 := (E_v63 (after opsD (after opsC (after opsB (after opsA V))))).trans hD63
  exact F_v73 _ x0 x1 hE63 hE66

/-- On every device, from any memory with zero counters: every weakly fair execution of the reference terminates with
    its result at the last stage of the argument arrays, and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v73)
          = val_main_v73 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v73).trans (result_eq _ _ _ rfl rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RunHand

end
-- ==== Proof.KernelBlockRead.lean ====
/-
  What the kernel's two input windows hold at a grid point, as entries of the argument arrays. The
  grid has 256 points; at point `t` the first window is rows `16384 t … 16384 t + 16383` of the
  scores (its block index is `t`), and the second the same rows, all 5 classes, of the logits (its
  block index is `(t, 0)`). A block's coordinate in the array is always
  block index × block size + coordinate inside the block.
-/
import proofs.«113967_j22299470201498_2_alg».proof.Proof.Gen.KernelIdeal.Frame
import Idealize.ShloMosaic.Lib.ValueIdx
import Idealize.ShloMosaic.Lib.Pipeline.Value

noncomputable section

namespace Cert.KernelIdeal.BlockRead

open Cert.KernelIdeal Cert.KernelIdeal.Gen Idealize.ShloMosaic Idealize.ShloMosaic.TcCoe Idealize.SL.Sem
  Idealize.ShloMosaic.ValueIdx

variable {F : FTy → Type} [FloatOps F] [Named F]
variable (m : (ℓ : Loc nD τ sig) → Buf (Elt F) ℓ)

/-- Row `r` of the block at grid point `t` is a row of the array: the grid has 256 points. -/
theorem row_lt' (t : Fin cfg0.N) (r : Fin 16384) : t.val * 16384 + r.val < 4194304 := by
  have ht : t.val < 256 := lt_of_lt_of_eq t.isLt N_0
  have hr := r.isLt
  omega

/-- The first window's block index at every grid point is the point's number. -/
theorem index0 : ∀ t : Fin cfg0.N, win0_0.index t 0 = t.val :=
  (by decide +kernel : ∀ t : Fin grid0.N, win0_0.index t 0 = t.val)

/-- The second window's block index at every grid point is (the point's number, 0). -/
theorem index1 : ∀ t : Fin cfg0.N, win0_1.index t 0 = t.val ∧ win0_1.index t 1 = 0 :=
  (by decide +kernel : ∀ t : Fin grid0.N, win0_1.index t 0 = t.val ∧ win0_1.index t 1 = 0)

/-- Entry `r` of the first window's block at point `t` is score `16384 t + r`. -/
theorem iblk0_apply (c : Dev nD) (t : Fin cfg0.N) (r : Fin 16384) :
    (iblk m c 0 t : Vec F S16384 .f32) (ix1 r)
      = m ((c : Thread nD τ).loc main_arg0) (ix1 ⟨t.val * 16384 + r.val, row_lt' t r⟩) := by
  unfold iblk
  rw [View.read_apply]
  show V m c main_arg0 _ = m (c.tc.loc main_arg0) _
  unfold V
  congr 1
  funext a
  apply Fin.ext
  match a with
  | ⟨0, _⟩ =>
    show win0_0.index t 0 * 16384 + 1 * r.val = t.val * 16384 + r.val
    rw [index0 t]; omega

/-- Entry `(r, k)` of the second window's block at point `t` is logit `(16384 t + r, k)`. -/
theorem iblk1_apply (c : Dev nD) (t : Fin cfg0.N) (r : Fin 16384) (k : Fin 5) :
    (iblk m c 1 t : Vec F S16384x5 .f32) (ix2 r k)
      = m ((c : Thread nD τ).loc main_arg1) (ix2 ⟨t.val * 16384 + r.val, row_lt' t r⟩ k) := by
  unfold iblk
  rw [View.read_apply]
  show V m c main_arg1 _ = m (c.tc.loc main_arg1) _
  unfold V
  congr 1
  funext a
  apply Fin.ext
  match a with
  | ⟨0, _⟩ =>
    show win0_1.index t 0 * 16384 + 1 * r.val = t.val * 16384 + r.val
    rw [(index1 t).1]; omega
  | ⟨1, _⟩ =>
    show win0_1.index t 1 * 5 + 1 * k.val = k.val
    rw [(index1 t).2]; omega

end Cert.KernelIdeal.BlockRead

end
-- ==== Proof.RowConsts.lean ====
/-
  The float words of the specification, as the extended reals they denote: each is a finite real
  (or −∞ for the last), read off the sign, exponent and significand fields of its pattern.
-/
import proofs.«113967_j22299470201498_2_alg».proof.Proof.RowSpec

noncomputable section

namespace Cert.KL

open Idealize.ShloMosaic

/-- The all-zero word denotes 0. -/
theorem c0_eq : c0 = 0 := by
  unfold c0; exact Ideal.ofBits_zero_f32

/-- Exponent field 126, zero significand: 2⁻¹. -/
theorem chalf_eq : chalf = ((1 / 2 : ℝ) : EReal) := by
  unfold chalf; simp [Ideal.ofBits, Ideal.ieee, -EReal.coe_mul]; norm_num

/-- Exponent field 127, zero significand: 1. -/
theorem c1_eq : c1 = ((1 : ℝ) : EReal) := by
  unfold c1; simp [Ideal.ofBits, Ideal.ieee, -EReal.coe_mul]; norm_num

/-- Exponent field 128, significand 1.5: 3. -/
theorem c3_eq : c3 = ((3 : ℝ) : EReal) := by
  unfold c3; simp [Ideal.ofBits, Ideal.ieee, -EReal.coe_mul]; norm_num

/-- Exponent field 129, zero significand: 4. -/
theorem c4_eq : c4 = ((4 : ℝ) : EReal) := by
  unfold c4; simp [Ideal.ofBits, Ideal.ieee, -EReal.coe_mul]; norm_num

/-- Exponent field 129, significand 1.25: 5. -/
theorem c5_eq : c5 = ((5 : ℝ) : EReal) := by
  unfold c5; simp [Ideal.ofBits, Ideal.ieee, -EReal.coe_mul]; norm_num

/-- Exponent field 149, zero significand: 2²² = 4194304. -/
theorem cN_eq : cN = ((4194304 : ℝ) : EReal) := by
  unfold cN; simp [Ideal.ofBits, Ideal.ieee, -EReal.coe_mul]; norm_num

/-- Exponent field 108, significand 1.125: 9 · 2⁻²². -/
theorem c9N_eq : c9N = ((9 / 4194304 : ℝ) : EReal) := by
  unfold c9N; simp [Ideal.ofBits, Ideal.ieee, -EReal.coe_mul]; norm_num

/-- Sign set, all-ones exponent, zero significand: −∞. -/
theorem cninf_eq : cninf = ⊥ := by
  unfold cninf; simp [Ideal.ofBits, Ideal.ieee]

end Cert.KL

end
-- ==== Proof.RowLaw1.lean ====
/-
  The identities between the two spellings that hold for every score and every logit, finite or not:
  the clipped score is a real in [0, 4], so its floor is an integer 0 … 4 that survives the conversion to a
  32-bit integer and back (the two class centres agree); a selection against 0 is a product with the 0/1 value
  of its condition (the two target masses agree); a division by 3 is a product with the third; and a fold of
  `max` from −∞ over five values is their nested maximum.
-/
import proofs.«113967_j22299470201498_2_alg».proof.Proof.RowConsts

noncomputable section

namespace Cert.KL

open Idealize.ShloMosaic

/-! ## The coercion of the reals commutes with max and min -/

theorem coe_max' (a b : ℝ) : ((max a b : ℝ) : EReal) = max (a : EReal) (b : EReal) :=
  EReal.coe_strictMono.monotone.map_max

theorem coe_min' (a b : ℝ) : ((min a b : ℝ) : EReal) = min (a : EReal) (b : EReal) :=
  EReal.coe_strictMono.monotone.map_min

/-! ## The clipped score, its floor and the main class -/

/-- The clipped score is a real in [0, 4], whatever the score: −∞ clips to 0, +∞ to 4. -/
theorem clipf_real (x : EReal) : ∃ t : ℝ, 0 ≤ t ∧ t ≤ 4 ∧ clipf x = (t : EReal) := by
  unfold clipf
  rw [c4_eq, c0_eq, c5_eq]
  induction x using EReal.rec with
  | bot =>
    refine ⟨0, le_refl _, by norm_num, ?_⟩
    rw [EReal.bot_mul_coe_of_pos (by norm_num : (0 : ℝ) < 5), max_eq_left bot_le, EReal.coe_zero]
    exact min_eq_right (by exact_mod_cast (by norm_num : (0 : ℝ) ≤ 4))
  | top =>
    refine ⟨4, by norm_num, le_refl _, ?_⟩
    rw [EReal.top_mul_coe_of_pos (by norm_num : (0 : ℝ) < 5), max_eq_right le_top]
    exact min_eq_left le_top
  | coe r =>
    refine ⟨min 4 (max 0 (r * 5)), le_min (by norm_num) (le_max_left _ _), min_le_left _ _, ?_⟩
    rw [coe_min', coe_max', EReal.coe_mul, EReal.coe_zero]

/-- The floor of the clipped score is an integer 0 … 4, and the main class is that integer as a 32-bit word. -/
theorem flo_idx (x : EReal) :
    ∃ n : ℤ, 0 ≤ n ∧ n ≤ 4 ∧ flo x = ((n : ℝ) : EReal) ∧ idx x = BitVec.ofInt 32 n := by
  obtain ⟨t, h0, h4, ht⟩ := clipf_real x
  have hfl : flo x = (((⌊t⌋ : ℤ) : ℝ) : EReal) := by
    unfold flo; rw [ht]; rfl
  have hn0 : 0 ≤ ⌊t⌋ := Int.floor_nonneg.mpr h0
  have hn4 : ⌊t⌋ ≤ 4 := by
    have h := Int.floor_le_floor h4
    simpa using h
  refine ⟨⌊t⌋, hn0, hn4, hfl, ?_⟩
  unfold idx Ideal.fptosi
  rw [hfl, Ideal.toIntClamped_coe]
  congr 1
  have hc : (0 : ℝ) ≤ ((⌊t⌋ : ℤ) : ℝ) := by exact_mod_cast hn0
  rw [if_pos hc, Int.floor_intCast]
  have e1 : ((2 ^ (32 - 1) : ℕ) : ℤ) = 2147483648 := by norm_num
  rw [e1]
  omega

/-- Converting the main class back to an integer returns the floor. -/
theorem idx_toInt (x : EReal) : flo x = ((((idx x).toInt : ℤ) : ℝ) : EReal) := by
  obtain ⟨n, h0, h4, hfl, hidx⟩ := flo_idx x
  rw [hfl, hidx]
  have : (BitVec.ofInt 32 n).toInt = n := by
    interval_cases n <;> rfl
  rw [this]

/-- The two class centres agree. -/
theorem ctrR_eq (x : EReal) : ctrR x = ctrK x := by
  unfold ctrR ctrK
  rw [← idx_toInt]

/-! ## A selection against zero is a product with the condition's 0/1 value -/

theorem bit_cases (b : BitVec 1) : b = 0#1 ∨ b = 1#1 := by
  have h : b.toNat < 2 := b.isLt
  rcases Nat.lt_succ_iff_lt_or_eq.mp h with h0 | h1
  · left; apply BitVec.eq_of_toNat_eq; simp at h0 ⊢; exact h0
  · right; apply BitVec.eq_of_toNat_eq; simpa using h1

theorem select_zero_mul (b : BitVec 1) (a : EReal) :
    Scalar.select b a c0 = a * (((b.toNat : ℕ) : ℝ) : EReal) := by
  rw [c0_eq]
  rcases bit_cases b with rfl | rfl
  · have : Scalar.select 0#1 a (0 : EReal) = 0 := if_neg (by decide)
    rw [this]; simp
  · have : Scalar.select 1#1 a (0 : EReal) = a := if_pos rfl
    rw [this]; simp

theorem cmpi_eq_comm (a b : BitVec 32) : IntOp.cmpi .eq a b = IntOp.cmpi .eq b a := by
  unfold IntOp.cmpi
  simp only []
  rw [Bool.beq_comm]

/-- The two target masses agree, for every score and class. -/
theorem softR_eq (x : EReal) (c : BitVec 32) : softR x c = softK x c := by
  unfold softR softK
  rw [ctrR_eq, select_zero_mul, select_zero_mul, cmpi_eq_comm c (idx x), cmpi_eq_comm c (nbidx x (ctrK x))]

/-! ## Division by the temperature -/

theorem div_c3 (y : EReal) : Ideal.div y c3 = y * inv3 := by
  rw [c3_eq, Ideal.div_coe (by norm_num : (3 : ℝ) ≠ 0)]; rfl

theorem sR_eq (x : EReal) (c : BitVec 32) : sR x c = sK x c := by
  unfold sR sK; rw [div_c3, softR_eq]

theorem uR_eq (l : EReal) : uR l = uK l := by
  unfold uR uK; exact div_c3 l

/-! ## The row maximum and the sum of exponentials -/

theorem maxR_eq (a : Fin 5 → EReal) : maxR a = max5 (a 0) (a 1) (a 2) (a 3) (a 4) := by
  unfold maxR max5
  rw [cninf_eq]
  simp only [Fin.univ_succ, Finset.fold_cons, Finset.fold_map, Finset.univ_unique, Finset.fold_singleton]
  show max ⊥ (max (a 0) (max (a 1) (max (a 2) (max (a 3) (max (a 4) ⊥))))) = _
  rw [max_eq_left (bot_le : (⊥ : EReal) ≤ a 4), max_eq_right (bot_le : (⊥ : EReal) ≤ _)]
  simp only [max_assoc]

theorem sumexpR_eq (a : Fin 5 → EReal) :
    sumexpR a = sumexp5 (a 0) (a 1) (a 2) (a 3) (a 4) (max5 (a 0) (a 1) (a 2) (a 3) (a 4)) := by
  unfold sumexpR sumexp5
  rw [c0_eq, zero_add, Fin.sum_univ_five, maxR_eq]

end Cert.KL

end
-- ==== Proof.RowLaw2.lean ====
/-
  The part that needs a real score. With a real score every target mass is a real, so the target row is a row of
  reals σ₀ … σ₄: its maximum m is a real, every exp (σₖ − m) is a positive real and so is their sum S. For a real a
  and S > 0,  exp (a − log S) = exp a / S  and  a − log S = log (exp a / S):  the kernel's probability and
  log-probability of the target are the reference's. The logits need no finiteness: their side of each term is
  spelled the same way in both.
-/
import proofs.«113967_j22299470201498_2_alg».proof.Proof.RowLaw1

noncomputable section

namespace Cert.KL

open Idealize.ShloMosaic

/-! ## The one analytic fact -/

theorem exp_sub_log (a S : ℝ) (hS : 0 < S) :
    Ideal.exp ((a : EReal) - Ideal.log (S : EReal)) = Ideal.div (Ideal.exp (a : EReal)) (S : EReal) := by
  rw [Ideal.log_coe, if_neg (not_le.mpr hS), ← EReal.coe_sub, Ideal.exp_coe, Ideal.exp_coe,
    Ideal.div_coe (ne_of_gt hS), ← EReal.coe_mul]
  congr 1
  rw [Real.exp_sub, Real.exp_log hS, one_div, div_eq_mul_inv]

theorem sub_log_eq (a S : ℝ) (hS : 0 < S) :
    (a : EReal) - Ideal.log (S : EReal) = Ideal.log (Ideal.div (Ideal.exp (a : EReal)) (S : EReal)) := by
  have hpos : 0 < Real.exp a * (1 / S) := by positivity
  rw [Ideal.exp_coe, Ideal.div_coe (ne_of_gt hS), ← EReal.coe_mul, Ideal.log_coe S, Ideal.log_coe (Real.exp a * (1 / S)),
    if_neg (not_le.mpr hS), if_neg (not_le.mpr hpos), ← EReal.coe_sub]
  congr 1
  rw [one_div, ← div_eq_mul_inv, Real.log_div (Real.exp_pos a).ne' hS.ne', Real.log_exp]

/-- One class's term: when the target's shifted entry is a real `a` and the target's sum of exponentials is a
    positive real `S`, the reference's term is the kernel's. -/
theorem term_eq (s u : Fin 5 → EReal) (k : Fin 5) (a S : ℝ) (hS : 0 < S)
    (ha : s k - maxR s = (a : EReal)) (hSe : sumexpR s = (S : EReal)) :
    termR s u k = termK (s k) (maxR s) (Ideal.log (sumexpR s)) (u k) (maxR u) (Ideal.log (sumexpR u)) := by
  unfold termR termK probR logsmR
  rw [ha, hSe, exp_sub_log a S hS, ← sub_log_eq a S hS]

/-! ## The loss of a row of real targets -/

theorem main_law (σ : Fin 5 → ℝ) (u : Fin 5 → EReal) :
    ∑ k : Fin 5, termR (fun c => (σ c : EReal)) u k
      = rowK (σ 0) (σ 1) (σ 2) (σ 3) (σ 4) (u 0) (u 1) (u 2) (u 3) (u 4) := by
  have hM5 : max5 (σ 0 : EReal) (σ 1) (σ 2) (σ 3) (σ 4)
      = ((max (max (max (max (σ 0) (σ 1)) (σ 2)) (σ 3)) (σ 4) : ℝ) : EReal) := by
    simp only [max5, coe_max']
  have hM : maxR (fun c => (σ c : EReal))
      = ((max (max (max (max (σ 0) (σ 1)) (σ 2)) (σ 3)) (σ 4) : ℝ) : EReal) := by
    rw [maxR_eq]; exact hM5
  have hS : sumexpR (fun c => (σ c : EReal))
      = ((Real.exp (σ 0 - max (max (max (max (σ 0) (σ 1)) (σ 2)) (σ 3)) (σ 4))
          + Real.exp (σ 1 - max (max (max (max (σ 0) (σ 1)) (σ 2)) (σ 3)) (σ 4))
          + Real.exp (σ 2 - max (max (max (max (σ 0) (σ 1)) (σ 2)) (σ 3)) (σ 4))
          + Real.exp (σ 3 - max (max (max (max (σ 0) (σ 1)) (σ 2)) (σ 3)) (σ 4))
          + Real.exp (σ 4 - max (max (max (max (σ 0) (σ 1)) (σ 2)) (σ 3)) (σ 4)) : ℝ) : EReal) := by
    rw [sumexpR_eq]
    simp only [hM5, sumexp5, ← EReal.coe_sub, Ideal.exp_coe, ← EReal.coe_add]
  have hSpos : 0 < Real.exp (σ 0 - max (max (max (max (σ 0) (σ 1)) (σ 2)) (σ 3)) (σ 4))
          + Real.exp (σ 1 - max (max (max (max (σ 0) (σ 1)) (σ 2)) (σ 3)) (σ 4))
          + Real.exp (σ 2 - max (max (max (max (σ 0) (σ 1)) (σ 2)) (σ 3)) (σ 4))
          + Real.exp (σ 3 - max (max (max (max (σ 0) (σ 1)) (σ 2)) (σ 3)) (σ 4))
          + Real.exp (σ 4 - max (max (max (max (σ 0) (σ 1)) (σ 2)) (σ 3)) (σ 4)) := by positivity
  have ht : ∀ k : Fin 5, termR (fun c => (σ c : EReal)) u k
      = termK ((fun c => (σ c : EReal)) k) (maxR (fun c => (σ c : EReal)))
          (Ideal.log (sumexpR (fun c => (σ c : EReal)))) (u k) (maxR u) (Ideal.log (sumexpR u)) :=
    fun k => term_eq _ u k _ _ hSpos (by rw [hM]; rfl) hS
  rw [Fin.sum_univ_five, ht 0, ht 1, ht 2, ht 3, ht 4]
  unfold rowK
  rw [c0_eq, zero_add, sumexpR_eq, maxR_eq, sumexpR_eq u, maxR_eq u]

/-! ## With a real score the target masses are reals -/

theorem select_coe (b : BitVec 1) (p q : ℝ) :
    Scalar.select b (p : EReal) (q : EReal) = ((Scalar.select b p q : ℝ) : EReal) := by
  unfold Scalar.select; split_ifs <;> rfl

theorem sK_real (r : ℝ) (c : BitVec 32) : ∃ σ : ℝ, sK (r : EReal) c = (σ : EReal) := by
  obtain ⟨n, _, _, hflo, _⟩ := flo_idx (r : EReal)
  have hctr : ∃ cr : ℝ, ctrK (r : EReal) = (cr : EReal) := by
    unfold ctrK
    rw [hflo, chalf_eq, c5_eq, Ideal.div_coe (by norm_num : (5 : ℝ) ≠ 0), ← EReal.coe_add, ← EReal.coe_mul]
    exact ⟨_, rfl⟩
  obtain ⟨cr, hcr⟩ := hctr
  have hdist : ∃ d : ℝ, dist (r : EReal) (ctrK (r : EReal)) = (d : EReal) := by
    unfold dist
    rw [hcr, c5_eq, ← EReal.coe_sub, ← EReal.coe_neg, ← coe_max', ← EReal.coe_mul]
    exact ⟨_, rfl⟩
  obtain ⟨d, hd⟩ := hdist
  have hmain : ∃ mv : ℝ, mainv (r : EReal) (ctrK (r : EReal)) = (mv : EReal) := by
    unfold mainv
    rw [hd, c1_eq, ← EReal.coe_sub, select_coe]; exact ⟨_, rfl⟩
  have hnb : ∃ nv : ℝ, nbv (r : EReal) (ctrK (r : EReal)) = (nv : EReal) := by
    unfold nbv
    rw [hd, c0_eq, ← EReal.coe_zero, select_coe]; exact ⟨_, rfl⟩
  obtain ⟨mv, hmv⟩ := hmain
  obtain ⟨nv, hnv⟩ := hnb
  unfold sK softK inv3
  rw [hmv, hnv, c0_eq, ← EReal.coe_zero, select_coe, select_coe, ← EReal.coe_add, ← EReal.coe_mul]
  exact ⟨_, rfl⟩

end Cert.KL

end
-- ==== Proof.RowLaw.lean ====
/-
  Two results. One sample's loss is the same in the kernel's spelling and in the
  reference's whenever the score is a real number (the five logits are arbitrary extended reals); and the mean over
  the 4194304 samples, scaled by the squared temperature 3 · 3, is the product with 9 / 4194304.
-/
import proofs.«113967_j22299470201498_2_alg».proof.Proof.RowLaw2

noncomputable section

namespace Cert.KL

open Idealize.ShloMosaic

/-- One sample's loss: the reference's sum over the five classes is the kernel's row, for a real score. -/
theorem row_law (r : ℝ) (l : Fin 5 → EReal) :
    rowRef (r : EReal) l = rowKer (r : EReal) (l 0) (l 1) (l 2) (l 3) (l 4) := by
  choose σ hσ using fun c : BitVec 32 => sK_real r c
  have hs : (fun c : Fin 5 => sR (r : EReal) (BitVec.ofNat 32 c.val))
      = fun c : Fin 5 => ((σ (BitVec.ofNat 32 c.val) : ℝ) : EReal) := by
    funext c; rw [sR_eq, hσ]
  have hu : (fun c : Fin 5 => uR (l c)) = fun c : Fin 5 => uK (l c) := by
    funext c; exact uR_eq _
  unfold rowRef rowKer
  rw [hs, hu, main_law (fun c : Fin 5 => σ (BitVec.ofNat 32 c.val)) (fun c : Fin 5 => uK (l c)),
    hσ 0#32, hσ 1#32, hσ 2#32, hσ 3#32, hσ 4#32]
  rfl

/-- Dividing by the number of samples and multiplying twice by the temperature is one product with 9 / 4194304:
    multiplication of extended reals is associative, and the three factors are reals. -/
theorem scale_law (T : EReal) : Ideal.div (c0 + T) cN * c3 * c3 = (c0 + T) * c9N := by
  rw [cN_eq, c3_eq, c9N_eq, Ideal.div_coe (by norm_num : (4194304 : ℝ) ≠ 0), mul_assoc, mul_assoc,
    ← EReal.coe_mul, ← EReal.coe_mul]
  congr 2
  norm_num

end Cert.KL

end
-- ==== Proof.RefRow.lean ====
/-
  The reference program read at one sample. Each host operation is read at an index and identified with the
  corresponding piece of the specification of one sample's loss: the clipped score, its floor and the main class, the
  class centre, the distance, the two masses and the neighbouring class (all at the sample's score); then, at a
  sample and a class, the target mass, its division by the temperature, the row maximum (a fold of `max` from −∞ over
  the five classes), the exponentials and their sum, the probability, the logits' log-softmax, and the term
  p · (log p − log q). Last, the program's result is the total of the terms divided by the number of samples and
  multiplied twice by the temperature.
-/
import proofs.«113967_j22299470201498_2_alg».proof.Proof.RefRead
import proofs.«113967_j22299470201498_2_alg».proof.Proof.RowLaw
import Idealize.ShloMosaic.Lib.ValueIdx
import Idealize.ShloMosaic.PureOps.Reduce
import Idealize.ShloMosaic.PureOps.Ideal.Laws

noncomputable section

namespace Cert.ReferenceIdeal.RefRow

open Cert.ReferenceIdeal Cert.ReferenceIdeal.Gen Cert.ReferenceIdeal.ReadP Idealize.ShloMosaic Idealize.ShloMosaic.ValueIdx

/-! ## The operations on the scores, at a sample -/

section Scores
variable (x0 : FVec Ideal S4194304 .f32) (i : S4194304.Idx)

/-- The integer 4 converted to a float is the float 4. -/
theorem four_eq : (FloatOps.sitofp (F := Ideal) .f32 (4#32 : BitVec 32)) = Cert.KL.c4 := by
  rw [Cert.KL.c4_eq]
  show ((((4#32 : BitVec 32).toInt : ℤ) : ℝ) : EReal) = ((4 : ℝ) : EReal)
  have h : (4#32 : BitVec 32).toInt = 4 := by decide
  rw [h]; norm_num

theorem v2_eq : val_main_v2 (F := Ideal) x0 i = Cert.KL.clipf (x0 i) := by
  rw [val_main_v2_apply, val_main_call0_v4_apply, val_main_call0_v3_apply, val_main_c_apply, four_eq,
    val_main_call0_v2_apply, val_main_call0_v1_apply, val_main_call0_v0_apply, val_main_cst_0_apply,
    val_main_v1_apply, val_main_v0_apply, val_main_cst_apply]
  rfl

theorem v3_eq : val_main_v3 (F := Ideal) x0 i = Cert.KL.flo (x0 i) := by
  rw [val_main_v3_apply, v2_eq]; rfl

theorem v4_eq : val_main_v4 (F := Ideal) x0 i = Cert.KL.idx (x0 i) := by
  rw [val_main_v4_apply, v3_eq]; rfl

theorem v9_eq : val_main_v9 (F := Ideal) x0 i = Cert.KL.ctrR (x0 i) := by
  rw [val_main_v9_apply, val_main_v7_apply, val_main_v5_apply, v4_eq, val_main_v6_apply, val_main_cst_1_apply,
    val_main_v8_apply, val_main_cst_2_apply]
  rfl

theorem v13_eq : val_main_v13 (F := Ideal) x0 i = Cert.KL.dist (x0 i) (Cert.KL.ctrR (x0 i)) := by
  rw [val_main_v13_apply, val_main_v11_apply, val_main_v10_apply, v9_eq, val_main_v12_apply, val_main_cst_3_apply]
  rfl

theorem v17_eq : val_main_v17 (F := Ideal) x0 i = Cert.KL.lo (x0 i) (Cert.KL.ctrR (x0 i)) := by
  rw [val_main_v17_apply, val_main_v15_apply, v4_eq, val_main_v14_apply, val_main_c_4_apply, val_main_v16_apply, v9_eq]
  rfl

theorem v21_eq : val_main_v21 (F := Ideal) x0 i = Cert.KL.hi (x0 i) (Cert.KL.ctrR (x0 i)) := by
  rw [val_main_v21_apply, val_main_v19_apply, v4_eq, val_main_v18_apply, val_main_c_5_apply, val_main_v20_apply, v9_eq]
  rfl

theorem v22_eq : val_main_v22 (F := Ideal) x0 i = Cert.KL.nb (x0 i) (Cert.KL.ctrR (x0 i)) := by
  rw [val_main_v22_apply, v17_eq, v21_eq]; rfl

theorem v25_eq : val_main_v25 (F := Ideal) x0 i = Cert.KL.mainv (x0 i) (Cert.KL.ctrR (x0 i)) := by
  rw [val_main_v25_apply, v22_eq, val_main_v24_apply, val_main_v23_apply, val_main_cst_6_apply, v13_eq,
    val_main_call1_v1_apply, val_main_call1_v0_apply, val_main_cst_7_apply]
  rfl

theorem v29_eq : val_main_v29 (F := Ideal) x0 i = Cert.KL.nbidx (x0 i) (Cert.KL.ctrR (x0 i)) := by
  rw [val_main_v29_apply, val_main_v27_apply, v4_eq, val_main_v26_apply, v17_eq, val_main_v28_apply, v21_eq]
  rfl

theorem v30_eq : val_main_v30 (F := Ideal) x0 i = Cert.KL.nbv (x0 i) (Cert.KL.ctrR (x0 i)) := by
  rw [val_main_v30_apply, v22_eq, v13_eq, val_main_call2_v1_apply, val_main_call2_v0_apply, val_main_cst_8_apply]
  rfl

end Scores

/-! ## Index equations: a sample-and-class index read back through the broadcasts -/

section Rows
variable (x0 : FVec Ideal S4194304 .f32) (x1 : FVec Ideal S4194304x5 .f32) (b : Fin 4194304) (k : Fin 5)

theorem e_v39 : idx_main_v32 (idx_main_v39 (ix2 b k)) = ix1 b := by
  funext a; match a with | ⟨0, _⟩ => rfl
theorem e_v36 : idx_main_v34 (idx_main_v36 (ix2 b k)) = ix1 b := by
  funext a; match a with | ⟨0, _⟩ => rfl
theorem e_v48 : idx_main_v41 (idx_main_v48 (ix2 b k)) = ix1 b := by
  funext a; match a with | ⟨0, _⟩ => rfl
theorem e_v45 : idx_main_v43 (idx_main_v45 (ix2 b k)) = ix1 b := by
  funext a; match a with | ⟨0, _⟩ => rfl
theorem e_v57 : idx_main_v56 (idx_main_v57 (ix2 b k)) = ix1 b := by
  funext a; match a with | ⟨0, _⟩ => rfl
theorem e_v62 : idx_main_v61 (idx_main_v62 (ix2 b k)) = ix1 b := by
  funext a; match a with | ⟨0, _⟩ => rfl
theorem e_c3v4 : idx_main_call3_v3 (idx_main_call3_v4 (ix2 b k)) = ix1 b := by
  funext a; match a with | ⟨0, _⟩ => rfl
theorem e_c3v10 : idx_main_call3_v8 (idx_main_call3_v10 (ix2 b k)) = ix1 b := by
  funext a; match a with | ⟨0, _⟩ => rfl
theorem e_v60 : idx_main_v60 (ix1 b) k = ix2 b k := by
  funext a; match a with | ⟨0, _⟩ => rfl | ⟨1, _⟩ => rfl
theorem e_c3v7 : idx_main_call3_v7 (ix1 b) k = ix2 b k := by
  funext a; match a with | ⟨0, _⟩ => rfl | ⟨1, _⟩ => rfl

/-! ## The target row -/

/-- The target mass of class `k`. -/
theorem v50_eq : val_main_v50 (F := Ideal) x0 (ix2 b k) = Cert.KL.softR (x0 (ix1 b)) (BitVec.ofNat 32 k.val) := by
  rw [val_main_v50_apply, val_main_v40_apply, val_main_v39_apply, val_main_v32_apply, e_v39, v25_eq,
    val_main_v38_apply, val_main_v37_apply, val_main_v35_apply, val_main_v33_apply, val_main_v31_apply,
    val_main_v36_apply, val_main_v34_apply, e_v36, v4_eq,
    val_main_v49_apply, val_main_v48_apply, val_main_v41_apply, e_v48, v30_eq,
    val_main_v47_apply, val_main_v46_apply, val_main_v44_apply, val_main_v42_apply, val_main_v31_apply,
    val_main_v45_apply, val_main_v43_apply, e_v45, v29_eq]
  rfl

/-- The target mass divided by the temperature. -/
theorem v52_eq : val_main_v52 (F := Ideal) x0 (ix2 b k) = Cert.KL.sR (x0 (ix1 b)) (BitVec.ofNat 32 k.val) := by
  rw [val_main_v52_apply, v50_eq, val_main_v51_apply, val_main_cst_9_apply]
  rfl

end Rows

/-! ## The row maximum: a reduce over the classes from −∞ is the fold over the five classes -/

theorem hRed : S4194304x5.Reduces [1] S4194304 := by decide

/-- The reduced index `b` with class `k` put back is (b, k). -/
theorem lift_ix2 (b : Fin 4194304) (k : Fin (S4194304x5.size 1)) :
    hRed.lift (ix1 b) k = ix2 b (⟨k.val, k.isLt⟩ : Fin 5) := by
  funext c; apply Fin.ext
  fin_cases c <;> rfl

theorem reduce_max_row (y : FVec Ideal S4194304x5 .f32) (init : S_.Idx → Ideal .f32)
    (hinit : init (Shape.Idx.first h_S_) = Cert.KL.cninf) (b : Fin 4194304) :
    Host.reduce FloatOps.maximumf y init reducesTo_S4194304x5_S4194304_d1 h_S_ (ix1 b)
      = (Finset.univ : Finset (Fin 5)).fold max Cert.KL.cninf (fun k => y (ix2 b k)) := by
  rw [Host.reduce_eq_fold_single FloatOps.maximumf y init reducesTo_S4194304x5_S4194304_d1 hRed h_S_, hinit]
  have hf : (y ∘ hRed.lift (ix1 b)) = fun k : Fin 5 => y (ix2 b k) := funext fun k => congrArg y (lift_ix2 b k)
  exact congrArg (fun f => Finset.fold max Cert.KL.cninf f (Finset.univ : Finset (Fin 5))) hf

section Softmax
variable (x0 : FVec Ideal S4194304 .f32) (x1 : FVec Ideal S4194304x5 .f32) (b : Fin 4194304) (k : Fin 5)

/-- The target row of sample `b`. -/
abbrev sRow : Fin 5 → EReal := fun c => Cert.KL.sR (x0 (ix1 b)) (BitVec.ofNat 32 c.val)
/-- The logit row of sample `b`, divided by the temperature. -/
abbrev uRow : Fin 5 → EReal := fun c => Cert.KL.uR (x1 (ix2 b c))

theorem v55_eq : val_main_v55 (F := Ideal) x0 (ix1 b) = Cert.KL.maxR (sRow x0 b) := by
  rw [val_main_v55_apply, val_main_v54_apply, val_main_cst_11_apply]
  unfold val_main_v53
  rw [reduce_max_row _ _ rfl b]
  have hf : (fun c : Fin 5 => val_main_v52 (F := Ideal) x0 (ix2 b c)) = sRow x0 b := funext fun c => v52_eq x0 b c
  rw [hf]
  rfl

theorem v58_eq : val_main_v58 (F := Ideal) x0 (ix2 b k) = sRow x0 b k - Cert.KL.maxR (sRow x0 b) := by
  rw [val_main_v58_apply, v52_eq, val_main_v57_apply, val_main_v56_apply, e_v57, v55_eq]
  rfl

theorem v59_eq : val_main_v59 (F := Ideal) x0 (ix2 b k) = Ideal.exp (sRow x0 b k - Cert.KL.maxR (sRow x0 b)) := by
  rw [val_main_v59_apply, v58_eq]; rfl

theorem v60_eq : val_main_v60 (F := Ideal) x0 (ix1 b) = Cert.KL.sumexpR (sRow x0 b) := by
  rw [val_main_v60_apply, val_main_cst_12_apply]
  have hf : (fun c : Fin 5 => val_main_v59 (F := Ideal) x0 (idx_main_v60 (ix1 b) c))
      = fun c : Fin 5 => Ideal.exp (sRow x0 b c - Cert.KL.maxR (sRow x0 b)) :=
    funext fun c => by rw [e_v60, v59_eq]
  rw [hf]
  rfl

theorem v63_eq : val_main_v63 (F := Ideal) x0 (ix2 b k) = Cert.KL.probR (sRow x0 b) k := by
  rw [val_main_v63_apply, v59_eq, val_main_v62_apply, val_main_v61_apply, e_v62, v60_eq]
  rfl

/-! ## The logits' log-softmax -/

theorem v65_eq (j : S4194304x5.Idx) : val_main_v65 (F := Ideal) x1 j = Cert.KL.uR (x1 j) := by
  rw [val_main_v65_apply, val_main_v64_apply, val_main_cst_13_apply]
  rfl

theorem c3v2_eq : val_main_call3_v2 (F := Ideal) x1 (ix1 b) = Cert.KL.maxR (uRow x1 b) := by
  rw [val_main_call3_v2_apply, val_main_call3_v1_apply, val_main_call3_cst_0_apply]
  unfold val_main_call3_v0
  rw [reduce_max_row _ _ rfl b]
  have hf : (fun c : Fin 5 => val_main_v65 (F := Ideal) x1 (ix2 b c)) = uRow x1 b := funext fun c => v65_eq x1 (ix2 b c)
  rw [hf]
  rfl

theorem c3v5_eq : val_main_call3_v5 (F := Ideal) x1 (ix2 b k) = uRow x1 b k - Cert.KL.maxR (uRow x1 b) := by
  rw [val_main_call3_v5_apply, v65_eq, val_main_call3_v4_apply, val_main_call3_v3_apply, e_c3v4, c3v2_eq]
  rfl

theorem c3v7_eq : val_main_call3_v7 (F := Ideal) x1 (ix1 b) = Cert.KL.sumexpR (uRow x1 b) := by
  rw [val_main_call3_v7_apply, val_main_call3_cst_1_apply]
  have hf : (fun c : Fin 5 => val_main_call3_v6 (F := Ideal) x1 (idx_main_call3_v7 (ix1 b) c))
      = fun c : Fin 5 => Ideal.exp (uRow x1 b c - Cert.KL.maxR (uRow x1 b)) :=
    funext fun c => by rw [e_c3v7, val_main_call3_v6_apply, c3v5_eq]; rfl
  rw [hf]
  rfl

theorem v66_eq : val_main_v66 (F := Ideal) x1 (ix2 b k) = Cert.KL.logsmR (uRow x1 b) k := by
  rw [val_main_v66_apply, c3v5_eq, val_main_call3_v10_apply, val_main_call3_v9_apply, val_main_call3_v8_apply,
    e_c3v10, c3v7_eq]
  rfl

/-! ## The term, the row and the result -/

theorem term_apply :
    val_main_v69 (F := Ideal) x0 x1 (ix2 b k)
      = Cert.KL.termR (fun c => Cert.KL.sR (x0 (ix1 b)) (BitVec.ofNat 32 c.val)) (fun c => Cert.KL.uR (x1 (ix2 b c))) k := by
  rw [val_main_v69_apply, v63_eq, val_main_v68_apply, val_main_v67_apply, v63_eq, v66_eq]
  rfl

theorem row_apply :
    ∑ k : Fin 5, val_main_v69 (F := Ideal) x0 x1 (ix2 b k) = Cert.KL.rowRef (x0 (ix1 b)) (fun c => x1 (ix2 b c)) := by
  unfold Cert.KL.rowRef
  exact Finset.sum_congr rfl fun k _ => term_apply x0 x1 b k

theorem result_apply (i : S_.Idx) :
    val_main_v73 (F := Ideal) x0 x1 i
      = Ideal.div (Cert.KL.c0 + ∑ j : S4194304x5.Idx, val_main_v69 (F := Ideal) x0 x1 j) Cert.KL.cN * Cert.KL.c3 * Cert.KL.c3 := by
  rw [val_main_v73_apply, val_main_v72_apply, val_main_v71_apply, val_main_v70_apply, val_main_cst_14_apply,
    val_main_cst_15_apply, val_main_cst_16_apply, val_main_cst_17_apply]
  rfl

end Softmax

end Cert.ReferenceIdeal.RefRow

end
-- ==== Proof.SumBlocks.lean ====
/-
  Regrouping a sum over a [4194304, 5] array: all index pairs, taken block by block (256 blocks of
  16384 rows), row by row inside the block, class by class. And two facts about sums over an initial
  segment of the naturals: a running sum built left to right from 0 is the sum of the terms met, and
  a sum over the first 256 naturals is the sum over the 256 block numbers.
-/
import Idealize.ShloMosaic.Lib.ValueIdx
import Mathlib.Algebra.BigOperators.Fin
import Mathlib.Data.EReal.Basic
import Mathlib.Logic.Equiv.Fin.Basic
import Mathlib.Tactic

noncomputable section

open scoped BigOperators

namespace Cert.KL

open Idealize.ShloMosaic

/-- Row `r` of block `t` is a row of the array: `t * 16384 + r < 256 * 16384`. -/
theorem row_lt (t : Fin 256) (r : Fin 16384) : t.val * 16384 + r.val < 4194304 := by
  have ht := t.isLt
  have hr := r.isLt
  omega

/-- A sum over the 4194304 rows is the sum over the 256 blocks of the sum over the block's 16384 rows,
    for values in any commutative monoid: every row number is `t * 16384 + r` for exactly one pair. -/
theorem sum_rows_blocks {M : Type*} [AddCommMonoid M] (g : Fin 4194304 → M) :
    ∑ a, g a = ∑ t : Fin 256, ∑ r : Fin 16384, g ⟨t.val * 16384 + r.val, row_lt t r⟩ := by
  rw [← Fintype.sum_prod_type']
  -- the pairs (t, r) and the rows correspond one to one by (t, r) ↦ r + 16384 * t
  rw [← (finProdFinEquiv : Fin 256 × Fin 16384 ≃ Fin (256 * 16384)).sum_comp]
  refine Fintype.sum_congr _ _ fun p => ?_
  congr 1
  apply Fin.ext
  simp only [finProdFinEquiv_apply_val]
  ring

/-- The sum over all index pairs of a [4194304, 5] array, regrouped by block, by row in the block, by class. -/
theorem sum_blocks (f : (⟨2, ![4194304, 5]⟩ : Shape).Idx → EReal) :
    ∑ j, f j = ∑ t : Fin 256, ∑ r : Fin 16384, ∑ k : Fin 5,
      f (ValueIdx.ix2 (⟨t.val * 16384 + r.val, by omega⟩ : Fin 4194304) k) := by
  rw [ValueIdx.sum_idx2, sum_rows_blocks]

/-- A running sum built left to right, starting from `0 + B 0` and adding the next term at each step,
    is `0` plus the sum of the terms met so far. -/
theorem running_sum (B : ℕ → EReal) (acc : ℕ → EReal) (h0 : acc 0 = 0 + B 0)
    (hs : ∀ n, acc (n + 1) = acc n + B (n + 1)) (n : ℕ) : acc n = 0 + ∑ t ∈ Finset.range (n + 1), B t := by
  induction n with
  | zero => rw [h0]; simp
  | succ n ih => rw [hs, ih, Finset.sum_range_succ _ (n + 1), add_assoc]

/-- A sum over the first 256 naturals is the sum over the 256 block numbers. -/
theorem sum_range_256 (B : ℕ → EReal) : ∑ t ∈ Finset.range 256, B t = ∑ t : Fin 256, B t.val :=
  (Fin.sum_univ_eq_sum_range B 256).symm

end Cert.KL

end
-- ==== Proof.Bridge.lean ====
/-
  The two results are one number.

  The reference sums p · (log p − log q) over all 4194304 × 5 entries, divides by 4194304 and multiplies twice by 3;
  the kernel sums, block by block, each sample's loss, and multiplies the total by 9/4194304. Regrouping the
  reference's sum by block, by sample in the block and by class, each sample's five terms are the kernel's loss of that
  sample — the one-sample law, which needs the sample's score to be a real number — and the two scalings agree on every
  extended real.
-/
import proofs.«113967_j22299470201498_2_alg».proof.Proof.KernelTotal
import proofs.«113967_j22299470201498_2_alg».proof.Proof.KernelBlockRead
import proofs.«113967_j22299470201498_2_alg».proof.Proof.RefRow
import proofs.«113967_j22299470201498_2_alg».proof.Proof.RowLaw
import proofs.«113967_j22299470201498_2_alg».proof.Proof.SumBlocks

noncomputable section

namespace Cert.Bridge

open Idealize.ShloMosaic Idealize.ShloMosaic.TcCoe Idealize.SL.Sem Idealize.ShloMosaic.ValueIdx
open Cert.KernelIdeal (nD τ sig main_arg0 main_arg1 cfg0)
open Cert.KernelIdeal.Gen (N_0)
open Cert.KernelIdeal.Total

variable (m : (ℓ : Loc nD τ sig) → Buf (Elt Ideal) ℓ)

/-- The running total after point `n` is 0 plus the sum of the first `n + 1` blocks' sums. -/
theorem chain_eq (c : Dev nD) : ∀ (n : ℕ) (h : n < cfg0.N),
    chain m c n h = Cert.KL.c0 + ∑ t : Fin (n + 1), blockTerm m c ⟨t.val, lt_of_lt_of_le t.isLt h⟩
  | 0, h => by
    rw [Fin.sum_univ_one]; rfl
  | n + 1, h => by
    rw [chain, chain_eq c n (Nat.lt_of_succ_lt h), add_assoc]
    conv_rhs => rw [Fin.sum_univ_castSucc]
    rfl

/-- The kernel's total is the reference's result, when every score is a real number. -/
theorem totals_agree (c : Dev nD)
    (hx : ∀ i, ∃ r : ℝ, m ((c.tc : Thread nD τ).loc main_arg0) i = (r : EReal)) (i : Cert.ReferenceIdeal.S_.Idx) :
    Cert.ReferenceIdeal.ReadP.val_main_v73 (F := Ideal) (m ((c.tc : Thread nD τ).loc main_arg0))
      (m ((c.tc : Thread nD τ).loc main_arg1)) i = total m c := by
  rw [Cert.ReferenceIdeal.RefRow.result_apply, Cert.KL.scale_law]
  unfold total
  rw [chain_eq]
  refine congrArg (fun s => (Cert.KL.c0 + s) * Cert.KL.c9N) ?_
  rw [Cert.KL.sum_blocks]
  have hN : cfg0.N = 256 := N_0
  show ∑ t : Fin 256, _ = ∑ t : Fin 256, _
  refine Finset.sum_congr rfl fun t _ => ?_
  unfold blockTerm Cert.KernelIdeal.RowValue.blockSum
  refine Finset.sum_congr rfl fun r _ => ?_
  rw [Cert.ReferenceIdeal.RefRow.row_apply]
  obtain ⟨rr, hr⟩ := hx (ix1 ⟨t.val * 16384 + r.val, by omega⟩)
  rw [hr, Cert.KL.row_law, ← hr]
  rw [Cert.KernelIdeal.BlockRead.iblk0_apply, Cert.KernelIdeal.BlockRead.iblk1_apply, Cert.KernelIdeal.BlockRead.iblk1_apply,
    Cert.KernelIdeal.BlockRead.iblk1_apply, Cert.KernelIdeal.BlockRead.iblk1_apply, Cert.KernelIdeal.BlockRead.iblk1_apply]

end Cert.Bridge

end
-- ==== Proof.ScoreFinite.lean ====
/-
  From the precondition "every entry of both inputs has absolute value below +∞" to "every score is a
  real number". The precondition is a conjunction of two "for all entries" statements, each an
  and-reduction of a one-bit array of comparisons started from 1; a reduction that comes out 1 met only
  1s, so the comparison holds at every entry. The bound compared against is the float word with all
  exponent bits set and zero significand, which denotes +∞; and an extended real `x` with
  `max x (-x) < +∞` is neither +∞ nor −∞, hence a real.
-/
import proofs.«113967_j22299470201498_2_alg».proof.Pre_finite_inputs
import Idealize.ShloMosaic.Lib.ReduceAll
import Idealize.ShloMosaic.Lib.ValueIdx

noncomputable section

namespace Cert.KL

open Idealize.ShloMosaic

/-- The float word with exponent field all ones and zero significand denotes +∞. -/
theorem inf_word_eq : Ideal.ofBits .f32 0x7F800000#32 = (⊤ : EReal) := by
  simp [Ideal.ofBits, Ideal.ieee]

/-- An extended real whose absolute value `max x (-x)` is below +∞ is a real number. -/
theorem real_of_abs_lt_top (x : EReal) (hx : max x (-x) < ⊤) : ∃ r : ℝ, x = (r : EReal) := by
  induction x using EReal.rec with
  | bot => simp at hx
  | coe r => exact ⟨r, rfl⟩
  | top => simp at hx

/-- An ordered "less than" comparison that comes out 1 is the strict order of the extended reals. -/
theorem lt_of_cmp_olt (x y : EReal) (h : Ideal.cmp .olt x y = 1#1) : x < y := by
  by_contra hn
  simp [Ideal.cmp, hn] at h

/-- Under the precondition every score is a real number. -/
theorem score_real [Cert.Pre_finite_inputs.Facts] (a0 : FVec Ideal Cert.Pre_finite_inputs.S4194304 .f32)
    (a1 : FVec Ideal Cert.Pre_finite_inputs.S4194304x5 .f32)
    (h : Cert.Pre_finite_inputs.fn (F := Ideal) a0 a1 = (fun _ => 1#1))
    (i : Cert.Pre_finite_inputs.S4194304.Idx) : ∃ r : ℝ, a0 i = (r : EReal) := by
  -- the result has a single (empty) index
  haveI : Subsingleton Cert.Pre_finite_inputs.S_.Idx := ⟨fun a b => funext fun d => d.elim0⟩
  have h0 := congrFun h ValueIdx.ix0
  dsimp only [Cert.Pre_finite_inputs.fn] at h0
  -- the conjunction is 1, so its first half, the and-reduction over the scores, is 1
  have h1 := (IntOp.andi_eq_one.1 h0).1
  -- so the comparison is 1 at every score
  have h2 := Host.reduce_andi_all _ _ _ _ _ h1 i
  -- read at the entry: the comparison of max x (-x) with the word for +∞
  change Ideal.cmp .olt (max (a0 i) (-(a0 i))) (Ideal.ofBits .f32 0x7F800000#32) = 1#1 at h2
  rw [inf_word_eq] at h2
  exact real_of_abs_lt_top _ (lt_of_cmp_olt _ _ h2)

end Cert.KL

end
-- ==== Proof.lean ====
/-
  The certificate of the consistency-loss kernel against its jnp reference: a soft-label KL divergence over
  4194304 samples and 5 classes, computed by a Pallas kernel in 256 blocks of 16384 samples and accumulated in a
  one-element output block across the grid, against softmax / log_softmax / sum on the host.

  The three frames are the generated runs (the reference's read back stretch by stretch). The idealization named the
  kernel's reciprocal of the temperature 1/3 at its ten sites; each is that rule's statement. The two results are equal
  extended reals whenever every score is a real number, which the precondition gives: each sample's five reference
  terms sum to the kernel's loss of that sample (the one-sample law), the reference's sum over all entries regroups by
  block, sample and class, and the scalings 1/4194304 · 3 · 3 and 9/4194304 agree.
-/
import proofs.«113967_j22299470201498_2_alg».proof.Defs
import proofs.«113967_j22299470201498_2_alg».proof.Proof.Gen.Kernel
import proofs.«113967_j22299470201498_2_alg».proof.Proof.Gen.Kernel.Skeleton
import proofs.«113967_j22299470201498_2_alg».proof.Proof.Gen.Kernel.Launch
import proofs.«113967_j22299470201498_2_alg».proof.Proof.Gen.Kernel.Points
import proofs.«113967_j22299470201498_2_alg».proof.Proof.Gen.Kernel.Frame
import proofs.«113967_j22299470201498_2_alg».proof.Proof.Gen.KernelIdeal
import proofs.«113967_j22299470201498_2_alg».proof.Proof.Gen.KernelIdeal.Skeleton
import proofs.«113967_j22299470201498_2_alg».proof.Proof.Gen.KernelIdeal.Launch
import proofs.«113967_j22299470201498_2_alg».proof.Proof.Gen.KernelIdeal.Points
import proofs.«113967_j22299470201498_2_alg».proof.Proof.Gen.KernelIdeal.Frame
import proofs.«113967_j22299470201498_2_alg».proof.Proof.Gen.ReferenceIdeal
import proofs.«113967_j22299470201498_2_alg».proof.Proof.Gen.Pre_finite_inputs
import proofs.«113967_j22299470201498_2_alg».proof.Proof.KernelTotal
import proofs.«113967_j22299470201498_2_alg».proof.Proof.RefRun
import proofs.«113967_j22299470201498_2_alg».proof.Proof.Bridge
import proofs.«113967_j22299470201498_2_alg».proof.Proof.ScoreFinite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunHand.run (F := Ideal) m ρ)

/-- One site of the named reciprocal: the table gives "inv_3" the value 1/3, and the printed constant is that value. -/
theorem third_site : IdealRules.named_const.Statement Cert.KernelIdeal.κ "inv_3" .f32 0x3EAAAAAB#32 ((1 / 3 : ℝ) : EReal) :=
  IdealRules.named_const.statement Cert.KernelIdeal.κ "inv_3" .f32 0x3EAAAAAB#32 ((1 / 3 : ℝ) : EReal) rfl

/-- The ten sites of the ledger. -/
theorem preserves : Cert.preserves_Kernel_KernelIdeal :=
  ⟨third_site, third_site, third_site, third_site, third_site, third_site, third_site, third_site, third_site, third_site⟩

/-- The kernel's scalar ends at its total, the reference's at its last stage of arguments that agree with the
    kernel's; the precondition makes every score a real number, and then the two are one number. -/
theorem algebraic : Cert.algebraic_KernelIdeal_ReferenceIdeal := by
  intro m ρ m' ρ' hpre hagree
  refine ⟨fun c => (fun _ => Cert.KernelIdeal.Total.total m c), Cert.KernelIdeal.Total.run m ρ, ?_⟩
  refine (θ_run Cert.ReferenceIdeal.defs _ _).mono (fun _ h c => ⟨(h c).1.trans ?_, (h c).2⟩)
    (Cert.ReferenceIdeal.RunHand.run (F := Ideal) m' ρ')
  rw [(hagree c).1, (hagree c).2]
  funext i
  exact Cert.Bridge.totals_agree m c (fun j => Cert.KL.score_real _ _ (hpre c) j) i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
